-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x384 .f32) (main_arg8 : FVec F S384 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S262144x128 .f32) (main_arg5 : FVec F S128x384 .f32) (main_arg6 : FVec F S384 .f32) (main_arg7 : FVec F S128x384 .f32) (main_arg8 : FVec F S384 .f32) (main_arg9 : FVec F S128x128 .f32) (main_arg10 : FVec F S128 .f32) (main_arg11 : FVec F S128x128 .f32) (main_arg12 : FVec F S128 .f32) (main_v13 : IVec S_ 1) (main_v16 : IVec S262144x128 1) : IVec S_ 1 :=
  let main_c_5 : IVec S_ 1 := constantI S_ 1 1#1
  let main_v17 : IVec S_ 1 := (fun x v => Host.reduce IntOp.andi x v reducesTo_S262144x128_S_d0_1 h_S_) main_v16 main_c_5
  let main_v18 : IVec S_ 1 := andi main_v13 main_v17
  let main_v19 : FVec F S262144x128 .f32 := Host.absf main_arg4
  let main_cst_6 : FVec F S_ .f32 := constant S_ .f32 0x7F800000#32
  let main_v20 : FVec F S262144x128 .f32 := broadcastInDim S262144x128 ![] bcast_S_S262144x128 main_cst_6
  let main_v21 : IVec S262144x128 1 := cmpf .olt main_v19 main_v20
  let main_c_7 : IVec S_ 1 := constantI S_ 1 1#1
  let main_v22 : IVec S_ 1 := (fun x v => Host.reduce IntOp.andi x v reducesTo_S262144x128_S_d0_1 h_S_) main_v21 main_c_7
  let main_v23 : IVec S_ 1 := andi main_v18 main_v22
  let main_v24 : FVec F S128x384 .f32 := Host.absf main_arg5
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S262144x128 .f32) (main_arg1 : FVec F S262144x128 .f32) (main_arg2 : FVec F S262144x128 .f32) (main_arg3 : FVec F S262144x128 .f32) (main_arg4 : FVec F S262144x128 .f32) (main_arg5 : FVec F S128x384 .f32) (main_arg6 : FVec F S384 .f32) (main_arg7 : FVec F S128x384 .f32) (main_arg8 : FVec F S384 .f32) (main_arg9 : FVec F S128x128 .f32) (main_arg10 : FVec F S128 .f32) (main_arg11 : FVec F S128x128 .f32) (main_arg12 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x128 .f32 := Host.absf main_arg3
  let main_cst_4 : FVec F S_ .f32 := constant S_ .f32 0x7F800000#32
  let main_v15 : FVec F S262144x128 .f32 := broadcastInDim S262144x128 ![] bcast_S_S262144x128 main_cst_4
  let main_v16 : IVec S262144x128 1 := cmpf .olt main_v14 main_v15
  fn_part1 (F := F) main_arg4 main_arg5 main_arg6 main_arg7 main_arg8 main_arg9 main_arg10 main_arg11 main_arg12 main_v13 main_v16
-- ==== Kernel.lean ====
abbrev S262144x128 : Shape := ⟨2, ![262144, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S1x384 : Shape := ⟨2, ![1, 384]⟩
abbrev S1x128 : Shape := ⟨2, ![1, 128]⟩
abbrev S4096x128 : Shape := ⟨2, ![4096, 128]⟩
abbrev S256x128 : Shape := ⟨2, ![256, 128]⟩
abbrev S256x512 : Shape := ⟨2, ![256, 512]⟩
abbrev S256x384 : Shape := ⟨2, ![256, 384]⟩

abbrev nBuf : Space → Nat
  | .hbm => 23
  | .vmem => 20
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S262144x128, .f32⟩
  | .hbm, ⟨5, _⟩ => ⟨S128x384, .f32⟩
  | .hbm, ⟨6, _⟩ => ⟨S384, .f32⟩
  | .hbm, ⟨7, _⟩ => ⟨S128x384, .f32⟩
  | .hbm, ⟨8, _⟩ => ⟨S384, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x512, .f32⟩
  | .hbm, ⟨14, _⟩ => ⟨S128x512, .bf16⟩
  | .hbm, ⟨15, _⟩ => ⟨S512, .f32⟩
  | .hbm, ⟨16, _⟩ => ⟨S1x512, .f32⟩
  | .hbm, ⟨17, _⟩ => ⟨S128x384, .bf16⟩
  | .hbm, ⟨18, _⟩ => ⟨S128x128, .bf16⟩
  | .hbm, ⟨19, _⟩ => ⟨S1x384, .f32⟩
  | .hbm, ⟨20, _⟩ => ⟨S1x128, .f32⟩
  | .hbm, ⟨21, _⟩ => ⟨S262144x128, .f32⟩
  | .hbm, ⟨22, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S128x512, .bf16⟩
  | .local _ .vmem, ⟨11, _⟩ => ⟨S1x512, .f32⟩
  | .local _ .vmem, ⟨12, _⟩ => ⟨S128x384, .bf16⟩
  | .local _ .vmem, ⟨13, _⟩ => ⟨S1x384, .f32⟩
  | .local _ .vmem, ⟨14, _⟩ => ⟨S128x128, .bf16⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v13 : BitVec 32 := Scalar.muli arg14 c256_i32
  v13
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v13 : BitVec 32 := Scalar.muli arg14 c256_i32
  let v14 : BitVec 32 := v13
  let v15 : Index := Scalar.indexCast v14
  let c0_12 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S128x384_S128x128_S128x512_d1 : Shape.Concatenates [S128x384, S128x128] S128x512 1
  bitsLt_bf16_f32 : FTy.bits .bf16 < FTy.bits .f32
  concatenates_S384_S128_S512_d0 : Shape.Concatenates [S384, S128] S512 0
  shapeCasts_S512_S1x512 : S512.ShapeCasts S1x512
  shapeCasts_S384_S1x384 : S384.ShapeCasts S1x384
  shapeCasts_S128_S1x128 : S128.ShapeCasts S1x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S256x128 : 0 < S256x128.numel
  broadcasts_S1x512_S256x512 : S1x512.Broadcasts S256x512
  slices_S256x512_o0_0_S256x384 : S256x512.Slices ![0, 0] S256x384
  slices_S256x512_o0_384_S256x128 : S256x512.Slices ![0, 384] S256x128
  broadcasts_S1x384_S256x384 : S1x384.Broadcasts S256x384
  slices_S256x384_o0_0_S256x128 : S256x384.Slices ![0, 0] S256x128
  slices_S256x384_o0_128_S256x128 : S256x384.Slices ![0, 128] S256x128
  slices_S256x384_o0_256_S256x128 : S256x384.Slices ![0, 256] S256x128
  broadcasts_S1x128_S256x128 : S1x128.Broadcasts S256x128
  dot_S256x128_S128x512_S256x512_1_0_0_1_n_n_wf : DotDims.WF S256x128 S128x512 S256x512 [1] [0] [0] [1] [] []
  dot_S256x128_S128x384_S256x384_1_0_0_1_n_n_wf : DotDims.WF S256x128 S128x384 S256x384 [1] [0] [0] [1] [] []
  dot_S256x128_S128x128_S256x128_1_0_0_1_n_n_wf : DotDims.WF S256x128 S128x128 S256x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .bf16 = 32 ∨ (Rect.block (s := S128x384) S128x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S262144x128.size a
  hwx0_11 : ∀ i : grid0.Coords, EltTy.bits .f32 = 32 ∨ (Rect.block (s := S262144x128) S4096x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x128.size a ≤ S262144x128.size a
  hwx0_12 : ∀ i : grid0.Coords, EltTy.bits .f32 = 32 ∨ (Rect.block (s := S262144x128) S4096x128.size (cc0_transform_12 i) (hinb0_12 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x128_S128x384_S256x384_1_0_0_1_n_n : DotDims S256x128 S128x384 S256x384 where
  lhsContracting := [1]
  rhsContracting := [0]
  lhsNonContracting := [0]
  rhsNonContracting := [1]
  lhsBatch := []
  rhsBatch := []
  wf := dot_S256x128_S128x384_S256x384_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S4096x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S4096x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S262144x384 : Shape := ⟨2, ![262144, 384]⟩
abbrev S1x384 : Shape := ⟨2, ![1, 384]⟩
abbrev S_ : Shape := ⟨0, ![]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S262144x128, .f32⟩
  | .hbm, ⟨5, _⟩ => ⟨S128x384, .f32⟩
  | .hbm, ⟨6, _⟩ => ⟨S384, .f32⟩
  | .hbm, ⟨7, _⟩ => ⟨S128x384, .f32⟩
  | .hbm, ⟨8, _⟩ => ⟨S384, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S262144x128, .f32⟩
  | .hbm, ⟨14, _⟩ => ⟨S262144x384, .f32⟩
  | .hbm, ⟨15, _⟩ => ⟨S1x384, .f32⟩
  | .hbm, ⟨16, _⟩ => ⟨S262144x384, .f32⟩
  | .hbm, ⟨17, _⟩ => ⟨S262144x384, .f32⟩
  | .hbm, ⟨18, _⟩ => ⟨S262144x384, .f32⟩
  | .hbm, ⟨19, _⟩ => ⟨S1x384, .f32⟩
  | .hbm, ⟨20, _⟩ => ⟨S262144x384, .f32⟩
  | .hbm, ⟨21, _⟩ => ⟨S262144x384, .f32⟩
  | .hbm, ⟨22, _⟩ => ⟨S262144x384, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S262144x128, .f32⟩
  | .hbm, ⟨28, _⟩ => ⟨S_, .f32⟩
  | .hbm, ⟨29, _⟩ => ⟨S262144x128, .f32⟩
  | .hbm, ⟨30, _⟩ => ⟨S262144x128, .f32⟩
  | .hbm, ⟨31, _⟩ => ⟨S_, .f32⟩
  | .hbm, ⟨32, _⟩ => ⟨S262144x128, .f32⟩
  | .hbm, ⟨33, _⟩ => ⟨S262144x128, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S_, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S1x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S1x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S_, .f32⟩
  | .hbm, ⟨55, _⟩ => ⟨S262144x128, .f32⟩
  | .hbm, ⟨56, _⟩ => ⟨S262144x128, .f32⟩
  | .hbm, ⟨57, _⟩ => ⟨S_, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S1x128, .f32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S_, .f32⟩
  | .hbm, ⟨68, _⟩ => ⟨S262144x128, .f32⟩
  | .hbm, ⟨69, _⟩ => ⟨S262144x128, .f32⟩
  | .hbm, ⟨70, _⟩ => ⟨S_, .f32⟩
  | .hbm, ⟨71, _⟩ => ⟨S262144x128, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S262144x128, .f32⟩
  | .hbm, ⟨76, _⟩ => ⟨S262144x128, .f32⟩
  | .hbm, ⟨77, _⟩ => ⟨S262144x128, .f32⟩
  | .hbm, ⟨78, _⟩ => ⟨S262144x128, .f32⟩
  | .hbm, ⟨79, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x128_S128x384_S262144x384_1_0_0_1_n_n_wf : DotDims.WF S262144x128 S128x384 S262144x384 [1] [0] [0] [1] [] []
  dot_S262144x128_S128x128_S262144x128_1_0_0_1_n_n_wf : DotDims.WF S262144x128 S128x128 S262144x128 [1] [0] [0] [1] [] []

variable [Facts₀]

def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibUnitAxes.lean ====
import Idealize.ShloMosaic.PureOps.Ideal.Laws
import Idealize.ShloMosaic.Lib.ValueIdx
import Idealize.ShloMosaic.Lib.ValueLayout

/-!
# Sums and casts along unit axes, read at an index

General lemmas, generic in the extents, about the layout steps a kernel takes around a reduction
that keeps or adds axes of extent one:

* a sum over the indices of an `[n]` vector, or of a `[1, n, 1]` stack, is the sum over `Fin n`;
* every index of a `[1]` vector, of a `[1, 1]` matrix and of a rank-zero array is the one index;
* an `[a]` vector recast as the column `[a, 1]` reads, at `(i, u)`, the vector at `i`;
* a one-element vector recast as `[1, 1, 1]` and read at its position `(0, 0, 0)` is its element;
* a `[1, 1]` matrix recast as a rank-zero array reads its one entry;
* on the extended reals, a `multi_reduction <add>` over the last axis of an `[a, n]` matrix read at
  row `r` is the sum over the row, and one over both inner axes of a `[1, n, 1]` stack is the sum over
  the stack's `n` entries.
-/

namespace Cert.Lib

open Idealize.ShloMosaic Idealize.ShloMosaic.ValueIdx

/-! ## Indices of shapes with unit axes -/

/-- The indices of an `[n]` vector are the elements of `Fin n`. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` vector is the sum over `Fin n`. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

/-- An index of a `[1, n, 1]` stack is `(0, r, 0)` for its middle coordinate `r`. -/
theorem eq_ix3_unit {n : ℕ} (i : (⟨3, ![1, n, 1]⟩ : Shape).Idx) :
    i = ix3 (0 : Fin 1) (i 1) (0 : Fin 1) := by
  funext d
  match d with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- The indices of a `[1, n, 1]` stack are the elements of `Fin n`. -/
def idxEquiv1n1 {n : ℕ} : (⟨3, ![1, n, 1]⟩ : Shape).Idx ≃ Fin n where
  toFun i := i 1
  invFun r := ix3 (0 : Fin 1) r (0 : Fin 1)
  left_inv i := (eq_ix3_unit i).symm
  right_inv _ := rfl

/-- A sum over the indices of a `[1, n, 1]` stack is the sum over `Fin n`. -/
theorem sum_idx1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- A `[1]` vector has one index. -/
theorem eq_ix1_zero (i : (⟨1, ![1]⟩ : Shape).Idx) : i = ix1 (0 : Fin 1) := by
  funext d
  match d with
  | ⟨0, _⟩ => exact Fin.ext (by have h : (i 0).val < 1 := (i 0).isLt; show (i 0).val = 0; omega)

/-- A `[1, 1]` matrix has one index. -/
theorem eq_ix2_zero (i : (⟨2, ![1, 1]⟩ : Shape).Idx) : i = ix2 (0 : Fin 1) (0 : Fin 1) := by
  funext d
  match d with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)

/-! ## Casts -/

variable {α : Type}

/-- An `[a]` vector recast as the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-element vector recast as `[1, 1, 1]` and read at its position `(0, 0, 0)` is its element. -/
theorem extract_shapeCast_1_111 (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt shapeCast
  exact congrArg x (eq_ix1_zero _)

/-- A `[1, 1]` matrix recast as a rank-zero array reads its one entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  unfold shapeCast
  exact congrArg x (eq_ix2_zero _)

/-! ## Reductions on the extended reals -/

/-- A `multi_reduction <add>` over the last axis of an `[a, n]` matrix, read at row `r`, is the sum of
    the row's entries. -/
theorem rowSum_apply {φ : FTy} {a n : ℕ} (src : FVec Ideal ⟨2, ![a, n]⟩ φ) (acc : BitVec φ.bits)
    (h : (⟨2, ![a, n]⟩ : Shape).Reduces [1] ⟨1, ![a]⟩) (hφ : FKind.Formats φ)
    (hacc : acc = FKind.add.neutral φ hφ) (r : Fin a) :
    multiReduction .add [1] ⟨1, ![a]⟩ src acc h hφ hacc (ix1 r) = ∑ k : Fin n, src (ix2 r k) :=
  (Ideal.multiReduction_add_single src acc h hφ hacc (ix1 r)).trans
    (Finset.sum_congr rfl fun k _ => congrArg src (funext fun d => Fin.ext (by
      match d with | ⟨0, _⟩ => rfl | ⟨1, _⟩ => rfl)))

/-- A `multi_reduction <add>` over both inner axes of a `[1, n, 1]` stack is the sum of its `n`
    entries. -/
theorem stackSum_apply {φ : FTy} {n : ℕ} (src : FVec Ideal ⟨3, ![1, n, 1]⟩ φ) (acc : BitVec φ.bits)
    (h : (⟨3, ![1, n, 1]⟩ : Shape).Reduces [1, 2] ⟨1, ![1]⟩) (hφ : FKind.Formats φ)
    (hacc : acc = FKind.add.neutral φ hφ) (j : (⟨1, ![1]⟩ : Shape).Idx) :
    multiReduction .add [1, 2] ⟨1, ![1]⟩ src acc h hφ hacc j
      = ∑ r : Fin n, src (ix3 (0 : Fin 1) r (0 : Fin 1)) :=
  (Ideal.multiReduction_add_total src acc h (fun b => by match b with | ⟨0, _⟩ => rfl) hφ hacc j).trans
    (sum_idx1n1 src)

end Cert.Lib
-- ==== Proof.LibRowLayers.lean ====
/-
  Dense layers and a feature mean, one row at a time, on the extended reals.

  A dense layer sends a row `h` of `K` numbers to the row `q ↦ (∑ k, h k · W k q) + b q`; a rectifier takes the
  maximum of each entry with the zero word of f32. Row `p` of a layer's output depends on row `p` of its input
  only, so a stack of such layers applied to a matrix is the stack applied to each row by itself: this is what
  lets a tile of rows computed on its own be compared with the whole matrix product.

  Two spellings of one dense layer are read here at an entry `(p, q)`, generic in the extents:
  a kernel tile's `tpu.matmul` (rows × contraction against contraction × columns, into the zero accumulator)
  plus a `[1, B]` bias row repeated over the rows; and the mean over the last axis of an `[a, n]` tile kept as
  a column `[a, 1]`.
-/
import Idealize.ShloMosaic.PureOps.Ideal.Laws
import Idealize.ShloMosaic.Lib.ValueIdx
import Idealize.ShloMosaic.Lib.ValueLayout
import Idealize.ShloMosaic.Lib.Pipeline.Value
import proofs.«181306_j88519275971251_2_alg».proof.Proof.LibMatmul2
import proofs.«181306_j88519275971251_2_alg».proof.Proof.LibUnitAxes

noncomputable section

namespace Cert.RowLayers

open Idealize.ShloMosaic Idealize.ShloMosaic.ValueIdx

/-- A dense layer on one row: `q ↦ (∑ k, h k · W k q) + b q`. -/
def affine {K B : ℕ} (h : Fin K → EReal) (W : Fin K → Fin B → EReal) (b : Fin B → EReal) : Fin B → EReal :=
  fun q => (∑ k : Fin K, h k * W k q) + b q

/-- The rectifier on one row: each entry's maximum with the zero word of f32. -/
def relu {B : ℕ} (h : Fin B → EReal) : Fin B → EReal :=
  fun q => max (h q) (Ideal.ofBits .f32 0x00000000#32)

/-- The mean of a row of `n` numbers as both programs spell it: the sum divided by the f32 word `d`. -/
def rowMean {n : ℕ} (d : BitVec 32) (h : Fin n → EReal) : EReal :=
  Ideal.div (∑ k : Fin n, h k) (Ideal.ofBits .f32 d)

/-- Four dense layers with a rectifier after each of the first three, on one row. -/
def mlp4 {D H O : ℕ} (x : Fin D → EReal) (W1 : Fin D → Fin H → EReal) (b1 : Fin H → EReal)
    (W2 : Fin H → Fin H → EReal) (b2 : Fin H → EReal) (W3 : Fin H → Fin H → EReal) (b3 : Fin H → EReal)
    (Wo : Fin H → Fin O → EReal) (bo : Fin O → EReal) : Fin O → EReal :=
  affine (relu (affine (relu (affine (relu (affine x W1 b1)) W2 b2)) W3 b3)) Wo bo

/-- The four layers depend on their row, weights and biases entry by entry. -/
theorem mlp4_congr {D H O : ℕ} {x x' : Fin D → EReal} {W1 W1' : Fin D → Fin H → EReal} {b1 b1' : Fin H → EReal}
    {W2 W2' : Fin H → Fin H → EReal} {b2 b2' : Fin H → EReal} {W3 W3' : Fin H → Fin H → EReal} {b3 b3' : Fin H → EReal}
    {Wo Wo' : Fin H → Fin O → EReal} {bo bo' : Fin O → EReal}
    (hx : ∀ k, x k = x' k) (hW1 : ∀ k q, W1 k q = W1' k q) (hb1 : ∀ q, b1 q = b1' q)
    (hW2 : ∀ k q, W2 k q = W2' k q) (hb2 : ∀ q, b2 q = b2' q) (hW3 : ∀ k q, W3 k q = W3' k q) (hb3 : ∀ q, b3 q = b3' q)
    (hWo : ∀ k q, Wo k q = Wo' k q) (hbo : ∀ q, bo q = bo' q) (q : Fin O) :
    mlp4 x W1 b1 W2 b2 W3 b3 Wo bo q = mlp4 x' W1' b1' W2' b2' W3' b3' Wo' bo' q := by
  obtain rfl : x = x' := funext hx
  obtain rfl : W1 = W1' := funext fun k => funext (hW1 k)
  obtain rfl : b1 = b1' := funext hb1
  obtain rfl : W2 = W2' := funext fun k => funext (hW2 k)
  obtain rfl : b2 = b2' := funext hb2
  obtain rfl : W3 = W3' := funext fun k => funext (hW3 k)
  obtain rfl : b3 = b3' := funext hb3
  obtain rfl : Wo = Wo' := funext fun k => funext (hWo k)
  obtain rfl : bo = bo' := funext hbo
  rfl

variable {A K B : ℕ} {φ₁ φ₂ : FTy}

/-- A kernel tile's dense layer at `(p, q)`: the product into the zero accumulator plus the bias row. -/
theorem tile_affine_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (w : FVec Ideal ⟨2, ![K, B]⟩ φ₂) (b : FVec Ideal ⟨2, ![1, B]⟩ .f32)
    (hw : (⟨2, ![K, B]⟩ : Shape).ShapeCasts ⟨2, ![K, B]⟩) (hb : (⟨2, ![1, B]⟩ : Shape).ShapeCasts ⟨2, ![1, B]⟩)
    (hbc : (⟨2, ![1, B]⟩ : Shape).Broadcasts ⟨2, ![A, B]⟩) (p : Fin A) (q : Fin B) :
    addf (matmul D none l (shapeCast ⟨2, ![K, B]⟩ w hw) (constant ⟨2, ![A, B]⟩ .f32 0x00000000#32))
        (broadcastTo ⟨2, ![A, B]⟩ (shapeCast ⟨2, ![1, B]⟩ b hb) hbc) (ix2 p q)
      = affine (fun k => l (ix2 p k)) (fun k q => w (ix2 k q)) (fun q => b (ix2 (0 : Fin 1) q)) q := by
  subst hD
  rw [addf_apply, Cert.Lib.matmul2_zero_apply, broadcastTo_1b_ab_apply, shapeCast_self, shapeCast_self]
  rfl

/-- A kernel tile's dense layer followed by the rectifier and a change of float format (the identity on the
    extended reals), at `(p, q)`. -/
theorem tile_hidden_apply {ψ : FTy} (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (w : FVec Ideal ⟨2, ![K, B]⟩ φ₂) (b : FVec Ideal ⟨2, ![1, B]⟩ .f32)
    (hw : (⟨2, ![K, B]⟩ : Shape).ShapeCasts ⟨2, ![K, B]⟩) (hb : (⟨2, ![1, B]⟩ : Shape).ShapeCasts ⟨2, ![1, B]⟩)
    (hbc : (⟨2, ![1, B]⟩ : Shape).Broadcasts ⟨2, ![A, B]⟩) (hlt : ψ.bits < (FTy.f32).bits) (p : Fin A) (q : Fin B) :
    (truncf ψ (maximumf (addf (matmul D none l (shapeCast ⟨2, ![K, B]⟩ w hw) (constant ⟨2, ![A, B]⟩ .f32 0x00000000#32))
        (broadcastTo ⟨2, ![A, B]⟩ (shapeCast ⟨2, ![1, B]⟩ b hb) hbc))
        (broadcast ⟨2, ![A, B]⟩ (Scalar.ofBits (F := Ideal) .f32 0x00000000#32))) hlt : FVec Ideal ⟨2, ![A, B]⟩ ψ) (ix2 p q)
      = relu (affine (fun k => l (ix2 p k)) (fun k q => w (ix2 k q)) (fun q => b (ix2 (0 : Fin 1) q))) q :=
  congrArg (max · (Ideal.ofBits .f32 0x00000000#32)) (tile_affine_apply D wf hD l w b hw hb hbc p q)

/-- A tile's rectifier at an entry. -/
theorem tile_relu_apply {s : Shape} (x : FVec Ideal s .f32) (i : s.Idx) :
    maximumf x (broadcast s (Scalar.ofBits (F := Ideal) .f32 0x00000000#32)) i
      = max (x i) (Ideal.ofBits .f32 0x00000000#32) := rfl

/-- A tile's mean over the last axis, kept as a column, at `(p, u)`. -/
theorem tile_mean_apply {a n : ℕ} (d : BitVec 32) (x : FVec Ideal ⟨2, ![a, n]⟩ .f32)
    (h : (⟨2, ![a, n]⟩ : Shape).Reduces [1] ⟨1, ![a]⟩) (hφ : FKind.Formats .f32)
    (hacc : (0x00000000#32 : BitVec (FTy.f32).bits) = FKind.add.neutral .f32 hφ)
    (hc : (⟨1, ![a]⟩ : Shape).ShapeCasts ⟨2, ![a, 1]⟩) (p : Fin a) (u : Fin 1) :
    divf (shapeCast ⟨2, ![a, 1]⟩ (multiReduction .add [1] ⟨1, ![a]⟩ x 0x00000000#32 h hφ hacc) hc)
        (broadcast ⟨2, ![a, 1]⟩ (Scalar.ofBits (F := Ideal) .f32 d)) (ix2 p u)
      = rowMean d (fun k => x (ix2 p k)) := by
  rw [divf_apply, Cert.Lib.shapeCast_a_a1_apply, Cert.Lib.rowSum_apply]
  rfl

end Cert.RowLayers

end
-- ==== Proof.LibLogisticTanh.lean ====
/-
  The logistic function written two ways, on the extended reals.

  One program computes a gate as 1 / (1 + e^(-z)); the other as (1/2) · tanh(z / 2) + 1/2. On the reals these are one
  function: with u = e^(z/2), tanh(z/2) = (u − 1/u) / (u + 1/u), so (1/2)·tanh(z/2) + 1/2 = u / (u + 1/u) = 1 / (1 + u⁻²).
  On the extended reals the two also agree at the infinities, where tanh is ±1, e^(−∞) = 0 and 1 / (+∞) = 0: both give 1
  at +∞ and 0 at −∞. So the identity holds for every extended real, and needs no finiteness of its argument.
-/
import Mathlib
import Idealize.ShloMosaic.PureOps.Ideal

noncomputable section

namespace Cert.Gates

open Idealize.ShloMosaic

/-- The f32 word 0x3F800000 is the number one. -/
theorem one_word : Ideal.ofBits .f32 0x3F800000#32 = ((1 : ℝ) : EReal) := by
  simp [Ideal.ofBits, Ideal.ieee, -EReal.coe_mul]
  norm_num

/-- The f32 word 0x3F000000 is one half. -/
theorem half_word : Ideal.ofBits .f32 0x3F000000#32 = ((1 / 2 : ℝ) : EReal) := by
  simp [Ideal.ofBits, Ideal.ieee, -EReal.coe_mul]
  norm_num

/-- On the reals, (1/2)·tanh(x/2) + 1/2 = 1 / (1 + e^(−x)). -/
theorem real_logistic (x : ℝ) : 1 / 2 * Real.tanh (1 / 2 * x) + 1 / 2 = 1 / (1 + Real.exp (-x)) := by
  have hu : 0 < Real.exp (1 / 2 * x) := Real.exp_pos _
  have hx : -x = -(1 / 2 * x) + -(1 / 2 * x) := by ring
  rw [Real.tanh_eq_sinh_div_cosh, Real.sinh_eq, Real.cosh_eq, hx, Real.exp_add, Real.exp_neg]
  generalize Real.exp (1 / 2 * x) = u at hu
  have hu' : u ≠ 0 := ne_of_gt hu
  field_simp
  ring

/-- The two spellings of the logistic function agree at every extended real. -/
theorem logistic_forms (z : EReal) :
    Ideal.ofBits .f32 0x3F000000#32 * Ideal.tanh (Ideal.ofBits .f32 0x3F000000#32 * z) + Ideal.ofBits .f32 0x3F000000#32
      = Ideal.div (Ideal.ofBits .f32 0x3F800000#32) (Ideal.ofBits .f32 0x3F800000#32 + Ideal.exp (-z)) := by
  rw [half_word, one_word]
  induction z using EReal.rec with
  | bot =>
    rw [EReal.coe_mul_bot_of_pos (by norm_num), Ideal.tanh_bot, EReal.neg_bot, Ideal.exp_top,
      EReal.add_top_of_ne_bot (EReal.coe_ne_bot _)]
    have h1 : (((1 / 2 : ℝ) : EReal) * (-1) + ((1 / 2 : ℝ) : EReal)) = ((0 : ℝ) : EReal) := by
      rw [show (-1 : EReal) = ((-1 : ℝ) : EReal) by rw [EReal.coe_neg, EReal.coe_one], ← EReal.coe_mul, ← EReal.coe_add]
      norm_num
    rw [h1]
    unfold Ideal.div
    rw [if_neg (by decide), EReal.inv_top, mul_zero]
    rfl
  | coe x =>
    have hpos : (1 + Real.exp (-x)) ≠ 0 := ne_of_gt (by positivity)
    rw [← EReal.coe_mul, Ideal.tanh_coe, ← EReal.coe_mul, ← EReal.coe_add, ← EReal.coe_neg, Ideal.exp_coe,
      ← EReal.coe_add, Ideal.div_coe hpos, ← EReal.coe_mul, real_logistic, one_mul]
  | top =>
    rw [EReal.coe_mul_top_of_pos (by norm_num), Ideal.tanh_top, EReal.neg_top, Ideal.exp_bot, add_zero]
    have h1 : (((1 / 2 : ℝ) : EReal) * 1 + ((1 / 2 : ℝ) : EReal)) = ((1 : ℝ) : EReal) := by
      rw [show (1 : EReal) = ((1 : ℝ) : EReal) from EReal.coe_one.symm, ← EReal.coe_mul, ← EReal.coe_add]
      norm_num
    rw [h1, Ideal.div_coe (by norm_num : (1 : ℝ) ≠ 0), ← EReal.coe_mul]
    norm_num

end Cert.Gates

end
-- ==== Proof.Spec.lean ====
/-
  One cell of a binary tree LSTM, one row at a time, on the extended reals.

  A node with input row x and two children (hidden rows lh, rh; cell entries lc, rc at the column in question) computes

      iou   = (x·Wx + bx) + ((lh + rh)·Wh + bh)                    three gates' pre-activations, 384 columns
      i, o  = σ(iou[q]), σ(iou[128 + q]);   u = tanh(iou[256 + q])
      f_l   = σ((lh·Wfh + bfh) + (x·Wfx + bfx))[q],   f_r likewise with rh
      c     = (i·u + f_l·lc) + f_r·rc
      h     = o · tanh(c)

  with σ the logistic function 1 / (1 + e^(-z)). Column q of the result depends on the one row of each input only.

  A second spelling of the same cell writes σ(z) as (1/2)·tanh(z/2) + 1/2 and adds the hidden bias last,
  ((x·Wx + bx) + (lh + rh)·Wh) + bh. The two spellings are equal at every extended real: the first by
  `Cert.Gates.logistic_forms`, the second by associativity of addition, which holds on the extended reals
  without any finiteness.
-/
import Mathlib
import Idealize.ShloMosaic.PureOps.Ideal
import proofs.«181306_j88519275971251_2_alg».proof.Proof.LibLogisticTanh

noncomputable section

namespace Cert.TreeCell

open Idealize.ShloMosaic

/-- A dense layer on one row: column `q` of `h·W + b`. -/
def dense {K B : ℕ} (h : Fin K → EReal) (W : Fin K → Fin B → EReal) (b : Fin B → EReal) (q : Fin B) : EReal :=
  (∑ k : Fin K, h k * W k q) + b q

/-- The logistic function as a quotient, 1 / (1 + e^(-z)), the constants being the f32 word for one. -/
def gate (z : EReal) : EReal :=
  Ideal.div (Ideal.ofBits .f32 0x3F800000#32) (Ideal.ofBits .f32 0x3F800000#32 + Ideal.exp (-z))

/-- The logistic function through the hyperbolic tangent, (1/2)·tanh(z/2) + 1/2, the constants the f32 word for a half. -/
def gateTanh (z : EReal) : EReal :=
  Ideal.ofBits .f32 0x3F000000#32 * Ideal.tanh (Ideal.ofBits .f32 0x3F000000#32 * z) + Ideal.ofBits .f32 0x3F000000#32

theorem gateTanh_eq (z : EReal) : gateTanh z = gate z := Cert.Gates.logistic_forms z

section Cell

variable (x lh rh : Fin 128 → EReal) (lc rc : EReal)
  (Wx Wh : Fin 128 → Fin 384 → EReal) (bx bh : Fin 384 → EReal)
  (Wfx Wfh : Fin 128 → Fin 128 → EReal) (bfx bfh : Fin 128 → EReal)

/-- The three gates' pre-activations: the input's layer plus the layer of the children's summed hidden rows. -/
def iou (j : Fin 384) : EReal := dense x Wx bx j + dense (fun k => lh k + rh k) Wh bh j

/-- The same with the hidden layer's bias added last. -/
def iouLate (j : Fin 384) : EReal := (dense x Wx bx j + ∑ k : Fin 128, (lh k + rh k) * Wh k j) + bh j

theorem iouLate_eq (j : Fin 384) : iouLate x lh rh Wx Wh bx bh j = iou x lh rh Wx Wh bx bh j :=
  add_assoc _ _ _

/-- A forget gate's pre-activation for the child with hidden row `h`. -/
def forget (h : Fin 128 → EReal) (q : Fin 128) : EReal := dense h Wfh bfh q + dense x Wfx bfx q

/-- The new cell entry at column `q`. -/
def cellC (q : Fin 128) : EReal :=
  (gate (iou x lh rh Wx Wh bx bh ⟨q.val, by omega⟩) * Ideal.tanh (iou x lh rh Wx Wh bx bh ⟨q.val + 256, by omega⟩)
      + gate (forget x Wfx Wfh bfx bfh lh q) * lc)
    + gate (forget x Wfx Wfh bfx bfh rh q) * rc

/-- The new hidden entry at column `q`. -/
def cellH (q : Fin 128) : EReal :=
  gate (iou x lh rh Wx Wh bx bh ⟨q.val + 128, by omega⟩) * Ideal.tanh (cellC x lh rh lc rc Wx Wh bx bh Wfx Wfh bfx bfh q)

/-- The cell entry in the second spelling. -/
def cellCTanh (q : Fin 128) : EReal :=
  (gateTanh (iouLate x lh rh Wx Wh bx bh ⟨q.val, by omega⟩) * Ideal.tanh (iouLate x lh rh Wx Wh bx bh ⟨q.val + 256, by omega⟩)
      + gateTanh (forget x Wfx Wfh bfx bfh lh q) * lc)
    + gateTanh (forget x Wfx Wfh bfx bfh rh q) * rc

/-- The hidden entry in the second spelling. -/
def cellHTanh (q : Fin 128) : EReal :=
  gateTanh (iouLate x lh rh Wx Wh bx bh ⟨q.val + 128, by omega⟩)
    * Ideal.tanh (cellCTanh x lh rh lc rc Wx Wh bx bh Wfx Wfh bfx bfh q)

theorem cellCTanh_eq (q : Fin 128) :
    cellCTanh x lh rh lc rc Wx Wh bx bh Wfx Wfh bfx bfh q = cellC x lh rh lc rc Wx Wh bx bh Wfx Wfh bfx bfh q := by
  unfold cellCTanh cellC
  simp only [gateTanh_eq, iouLate_eq]

theorem cellHTanh_eq (q : Fin 128) :
    cellHTanh x lh rh lc rc Wx Wh bx bh Wfx Wfh bfx bfh q = cellH x lh rh lc rc Wx Wh bx bh Wfx Wfh bfx bfh q := by
  unfold cellHTanh cellH
  simp only [gateTanh_eq, iouLate_eq, cellCTanh_eq]

end Cell

end Cert.TreeCell

end
-- ==== Proof.ChunkCell.lean ====
/-
  What one 256-row chunk of the kernel's loop stores, entry by entry.

  Each trip of the loop loads 256 rows of the five row-streamed blocks (left hidden a0, left cell a1, right hidden a2,
  right cell a3, input a4) and, with the six resident blocks (w5 the two input-side weight matrices side by side,
  [128, 384 + 128]; w6 their biases as one row; w7, w8 the hidden layer of the three gates; w9, w10 the forget layer),
  stores the new cell chunk and the new hidden chunk. Entry (p, q) of either chunk is the tree-LSTM cell of
  Spec.lean applied to row p of the loads: the input-side product against w5 gives all 512 columns at once, its first
  384 columns the gates' input layer and its last 128 the forget gates' input layer; the matrix products are sums
  over the 128 hidden columns; the gates are spelt through tanh and the hidden bias is added last, which is the cell's
  second spelling, equal to the first.
-/
import proofs.«181306_j88519275971251_2_alg».proof.Proof.Gen.KernelIdeal.Skeleton
import proofs.«181306_j88519275971251_2_alg».proof.Proof.LibMatmul2
import proofs.«181306_j88519275971251_2_alg».proof.Proof.LibRowLayers
import proofs.«181306_j88519275971251_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx Cert.TreeCell

section Payloads

variable {F : FTy → Type} [FloatOps F]

/-- The new cell chunk a trip stores, as one term of the trip's five loads and the six resident loads. -/
def chunkC (w5 : Vec F S128x512 .bf16) (w6 : Vec F S1x512 .f32) (w7 : Vec F S128x384 .bf16) (w8 : Vec F S1x384 .f32)
    (w9 : Vec F S128x128 .bf16) (w10 : Vec F S1x128 .f32) (a0 a1 a2 a3 a4 : Vec F S256x128 .f32) : FVec F S256x128 .f32 :=
  k0_pay5 w9 w10 a1 a3 (k0_pay7 a0) (k0_pay8 a2) (k0_pay10 (k0_pay1 w5) (k0_pay2 w6) a4)
    (k0_pay12 (k0_pay1 w5) (k0_pay2 w6) (k0_pay3 w7) (k0_pay4 w8) a0 a2 a4)
    (k0_pay14 (k0_pay1 w5) (k0_pay2 w6) (k0_pay3 w7) (k0_pay4 w8) a0 a2 a4)
    (constant S256x128 .f32 0x00000000#32)

/-- The new hidden chunk a trip stores. -/
def chunkH (w5 : Vec F S128x512 .bf16) (w6 : Vec F S1x512 .f32) (w7 : Vec F S128x384 .bf16) (w8 : Vec F S1x384 .f32)
    (w9 : Vec F S128x128 .bf16) (w10 : Vec F S1x128 .f32) (a0 a1 a2 a3 a4 : Vec F S256x128 .f32) : FVec F S256x128 .f32 :=
  k0_pay6 w9 w10 a1 a3 (k0_pay7 a0) (k0_pay8 a2) (k0_pay10 (k0_pay1 w5) (k0_pay2 w6) a4)
    (k0_pay12 (k0_pay1 w5) (k0_pay2 w6) (k0_pay3 w7) (k0_pay4 w8) a0 a2 a4)
    (k0_pay13 (k0_pay1 w5) (k0_pay2 w6) (k0_pay3 w7) (k0_pay4 w8) a0 a2 a4)
    (k0_pay14 (k0_pay1 w5) (k0_pay2 w6) (k0_pay3 w7) (k0_pay4 w8) a0 a2 a4)
    (constant S256x128 .f32 0x00000000#32)

/-- The logistic function through tanh, on a whole chunk. -/
def gateV (z : FVec F S256x128 .f32) : FVec F S256x128 .f32 :=
  addf (mulf (broadcast S256x128 (Scalar.ofBits .f32 0x3F000000#32))
      (tanh (mulf (broadcast S256x128 (Scalar.ofBits .f32 0x3F000000#32)) z)))
    (broadcast S256x128 (Scalar.ofBits .f32 0x3F000000#32))

/-- A forget gate's pre-activation on a whole chunk: the child's hidden rows through the forget layer, plus the input's
    forget layer `fx`. -/
def forgetV (w9 : Vec F S128x128 .bf16) (w10 : Vec F S1x128 .f32) (h : FVec F S256x128 .bf16) (acc fx : FVec F S256x128 .f32) :
    FVec F S256x128 .f32 :=
  addf (addf (matmul dot_S256x128_S128x128_S256x128_1_0_0_1_n_n none h (shapeCast S128x128 w9 shapeCasts_S128x128_S128x128) acc)
      (broadcastTo S256x128 (shapeCast S1x128 w10 shapeCasts_S1x128_S1x128) broadcasts_S1x128_S256x128)) fx

/-- The stored cell chunk in terms of the gates. -/
theorem pay5_eq (v8 : Vec F S128x128 .bf16) (v10 : Vec F S1x128 .f32) (v18 v22 : Vec F S256x128 .f32)
    (v28 v29 : FVec F S256x128 .bf16) (v34 v48 v56 cst : FVec F S256x128 .f32) :
    k0_pay5 v8 v10 v18 v22 v28 v29 v34 v48 v56 cst
      = addf (addf (mulf v48 v56) (mulf (gateV (forgetV v8 v10 v28 cst v34)) v18))
          (mulf (gateV (forgetV v8 v10 v29 (constant S256x128 .f32 0x00000000#32) v34)) v22) := rfl

end Payloads

section Entries

variable (w5 : Vec Ideal S128x512 .bf16) (w6 : Vec Ideal S1x512 .f32) (w7 : Vec Ideal S128x384 .bf16)
  (w8 : Vec Ideal S1x384 .f32) (w9 : Vec Ideal S128x128 .bf16) (w10 : Vec Ideal S1x128 .f32)
  (a0 a1 a2 a3 a4 : Vec Ideal S256x128 .f32)

theorem gateV_apply (z : FVec Ideal S256x128 .f32) (i : S256x128.Idx) : gateV z i = gateTanh (z i) := rfl

/-- The input-side product against both weight matrices at once, plus the bias row: all 512 columns. -/
theorem xlayer_apply (p : Fin 256) (j : Fin 512) :
    k0_pay9 (k0_pay1 w5) (k0_pay2 w6) a4 (ix2 p j)
      = dense (fun k => a4 (ix2 p k)) (fun k j => w5 (ix2 k j)) (fun j => w6 (ix2 (0 : Fin 1) j)) j := by
  unfold k0_pay9 k0_pay1 k0_pay2
  exact Cert.RowLayers.tile_affine_apply dot_S256x128_S128x512_S256x512_1_0_0_1_n_n
    dot_S256x128_S128x512_S256x512_1_0_0_1_n_n.wf rfl (truncf .bf16 a4 bitsLt_bf16_f32) w5 w6 _ _ _ p j

/-- The forget layer of a child's hidden rows plus the input's forget layer, at an entry. -/
theorem forgetV_apply (a : Vec Ideal S256x128 .f32) (fx : FVec Ideal S256x128 .f32) (p : Fin 256) (q : Fin 128) :
    forgetV w9 w10 (truncf .bf16 a bitsLt_bf16_f32) (constant S256x128 .f32 0x00000000#32) fx (ix2 p q)
      = dense (fun k => a (ix2 p k)) (fun k j => w9 (ix2 k j)) (fun j => w10 (ix2 (0 : Fin 1) j)) q + fx (ix2 p q) := by
  unfold forgetV
  rw [addf_apply]
  exact congrArg (· + fx (ix2 p q)) (Cert.RowLayers.tile_affine_apply dot_S256x128_S128x128_S256x128_1_0_0_1_n_n
    dot_S256x128_S128x128_S256x128_1_0_0_1_n_n.wf rfl (truncf .bf16 a bitsLt_bf16_f32) w9 w10 _ _ _ p q)

/-- The three gates' pre-activations at an entry: the first 384 columns of the input-side product, plus the children's
    summed hidden rows through the hidden layer, plus the hidden bias. -/
theorem iou_apply (p : Fin 256) (j : Fin 384) :
    k0_pay11 (k0_pay1 w5) (k0_pay2 w6) (k0_pay3 w7) (k0_pay4 w8) a0 a2 a4 (ix2 p j)
      = iouLate (fun k => a4 (ix2 p k)) (fun k => a0 (ix2 p k)) (fun k => a2 (ix2 p k))
          (fun k j => w5 (ix2 k ⟨j.val, by omega⟩)) (fun k j => w7 (ix2 k j))
          (fun j => w6 (ix2 (0 : Fin 1) ⟨j.val, by omega⟩)) (fun j => w8 (ix2 (0 : Fin 1) j)) j := by
  unfold k0_pay11
  show (extractStridedSlice S256x384 ![0, 0] (k0_pay9 (k0_pay1 w5) (k0_pay2 w6) a4) _ (ix2 p j)
      + matmul dot_S256x128_S128x384_S256x384_1_0_0_1_n_n none (truncf .bf16 (addf a0 a2) bitsLt_bf16_f32) (k0_pay3 w7)
          (constant S256x384 .f32 0x00000000#32) (ix2 p j))
      + broadcastTo S256x384 (k0_pay4 w8) _ (ix2 p j) = _
  have e1 : extractStridedSlice S256x384 ![0, 0] (k0_pay9 (k0_pay1 w5) (k0_pay2 w6) a4) slices_S256x512_o0_0_S256x384 (ix2 p j)
      = dense (fun k => a4 (ix2 p k)) (fun k j => w5 (ix2 k j)) (fun j => w6 (ix2 (0 : Fin 1) j)) ⟨j.val, by omega⟩ :=
    (slice2_axis1_apply (n1 := 512) 0 (k0_pay9 (k0_pay1 w5) (k0_pay2 w6) a4) _ p j ⟨j.val, by omega⟩ (Nat.zero_add _).symm).trans
      (xlayer_apply w5 w6 a4 p _)
  rw [e1]
  rw [show matmul dot_S256x128_S128x384_S256x384_1_0_0_1_n_n none (truncf .bf16 (addf a0 a2) bitsLt_bf16_f32) (k0_pay3 w7)
          (constant S256x384 .f32 0x00000000#32) (ix2 p j) = _ from
      Cert.Lib.matmul2_zero_apply dot_S256x128_S128x384_S256x384_1_0_0_1_n_n.wf _ _ p j]
  rw [broadcastTo_1b_ab_apply]
  unfold k0_pay3 k0_pay4
  rw [shapeCast_self, shapeCast_self]
  rfl

/-- The input gate at an entry. -/
theorem gateI_apply (p : Fin 256) (q : Fin 128) :
    k0_pay12 (k0_pay1 w5) (k0_pay2 w6) (k0_pay3 w7) (k0_pay4 w8) a0 a2 a4 (ix2 p q)
      = gateTanh (iouLate (fun k => a4 (ix2 p k)) (fun k => a0 (ix2 p k)) (fun k => a2 (ix2 p k))
          (fun k j => w5 (ix2 k ⟨j.val, by omega⟩)) (fun k j => w7 (ix2 k j))
          (fun j => w6 (ix2 (0 : Fin 1) ⟨j.val, by omega⟩)) (fun j => w8 (ix2 (0 : Fin 1) j)) ⟨q.val, by omega⟩) := by
  unfold k0_pay12
  exact congrArg gateTanh ((slice2_axis1_apply 0 (k0_pay11 (k0_pay1 w5) (k0_pay2 w6) (k0_pay3 w7) (k0_pay4 w8) a0 a2 a4) _ p q ⟨q.val, by omega⟩ (Nat.zero_add _).symm).trans
    (iou_apply w5 w6 w7 w8 a0 a2 a4 p _))

/-- The output gate at an entry. -/
theorem gateO_apply (p : Fin 256) (q : Fin 128) :
    k0_pay13 (k0_pay1 w5) (k0_pay2 w6) (k0_pay3 w7) (k0_pay4 w8) a0 a2 a4 (ix2 p q)
      = gateTanh (iouLate (fun k => a4 (ix2 p k)) (fun k => a0 (ix2 p k)) (fun k => a2 (ix2 p k))
          (fun k j => w5 (ix2 k ⟨j.val, by omega⟩)) (fun k j => w7 (ix2 k j))
          (fun j => w6 (ix2 (0 : Fin 1) ⟨j.val, by omega⟩)) (fun j => w8 (ix2 (0 : Fin 1) j)) ⟨q.val + 128, by omega⟩) := by
  unfold k0_pay13
  exact congrArg gateTanh ((slice2_axis1_apply 128 (k0_pay11 (k0_pay1 w5) (k0_pay2 w6) (k0_pay3 w7) (k0_pay4 w8) a0 a2 a4) _ p q ⟨q.val + 128, by omega⟩ (Nat.add_comm _ _)).trans
    (iou_apply w5 w6 w7 w8 a0 a2 a4 p _))

/-- The candidate at an entry. -/
theorem cand_apply (p : Fin 256) (q : Fin 128) :
    k0_pay14 (k0_pay1 w5) (k0_pay2 w6) (k0_pay3 w7) (k0_pay4 w8) a0 a2 a4 (ix2 p q)
      = Ideal.tanh (iouLate (fun k => a4 (ix2 p k)) (fun k => a0 (ix2 p k)) (fun k => a2 (ix2 p k))
          (fun k j => w5 (ix2 k ⟨j.val, by omega⟩)) (fun k j => w7 (ix2 k j))
          (fun j => w6 (ix2 (0 : Fin 1) ⟨j.val, by omega⟩)) (fun j => w8 (ix2 (0 : Fin 1) j)) ⟨q.val + 256, by omega⟩) := by
  unfold k0_pay14
  exact congrArg Ideal.tanh ((slice2_axis1_apply 256 (k0_pay11 (k0_pay1 w5) (k0_pay2 w6) (k0_pay3 w7) (k0_pay4 w8) a0 a2 a4) _ p q ⟨q.val + 256, by omega⟩ (Nat.add_comm _ _)).trans
    (iou_apply w5 w6 w7 w8 a0 a2 a4 p _))

/-- The input's forget layer at an entry: the last 128 columns of the input-side product. -/
theorem fx_apply (p : Fin 256) (q : Fin 128) :
    k0_pay10 (k0_pay1 w5) (k0_pay2 w6) a4 (ix2 p q)
      = dense (fun k => a4 (ix2 p k)) (fun k j => w5 (ix2 k ⟨j.val + 384, by omega⟩))
          (fun j => w6 (ix2 (0 : Fin 1) ⟨j.val + 384, by omega⟩)) q := by
  unfold k0_pay10
  exact (slice2_axis1_apply 384 (k0_pay9 (k0_pay1 w5) (k0_pay2 w6) a4) _ p q ⟨q.val + 384, by omega⟩ (Nat.add_comm _ _)).trans
    (xlayer_apply w5 w6 a4 p _)

/-- The stored cell chunk at an entry, in the spelling through tanh. -/
theorem chunkC_tanh_apply (p : Fin 256) (q : Fin 128) :
    chunkC w5 w6 w7 w8 w9 w10 a0 a1 a2 a3 a4 (ix2 p q)
      = cellCTanh (fun k => a4 (ix2 p k)) (fun k => a0 (ix2 p k)) (fun k => a2 (ix2 p k)) (a1 (ix2 p q)) (a3 (ix2 p q))
          (fun k j => w5 (ix2 k ⟨j.val, by omega⟩)) (fun k j => w7 (ix2 k j))
          (fun j => w6 (ix2 (0 : Fin 1) ⟨j.val, by omega⟩)) (fun j => w8 (ix2 (0 : Fin 1) j))
          (fun k j => w5 (ix2 k ⟨j.val + 384, by omega⟩)) (fun k j => w9 (ix2 k j))
          (fun j => w6 (ix2 (0 : Fin 1) ⟨j.val + 384, by omega⟩)) (fun j => w10 (ix2 (0 : Fin 1) j)) q := by
  unfold chunkC
  rw [pay5_eq, addf_apply, addf_apply, mulf_apply, mulf_apply, mulf_apply, gateV_apply, gateV_apply]
  unfold k0_pay7 k0_pay8
  rw [forgetV_apply, forgetV_apply, gateI_apply, cand_apply, fx_apply]
  rfl

/-- The stored cell chunk at an entry is the cell of row `p` of the loads. -/
theorem chunkC_apply (p : Fin 256) (q : Fin 128) :
    chunkC w5 w6 w7 w8 w9 w10 a0 a1 a2 a3 a4 (ix2 p q)
      = cellC (fun k => a4 (ix2 p k)) (fun k => a0 (ix2 p k)) (fun k => a2 (ix2 p k)) (a1 (ix2 p q)) (a3 (ix2 p q))
          (fun k j => w5 (ix2 k ⟨j.val, by omega⟩)) (fun k j => w7 (ix2 k j))
          (fun j => w6 (ix2 (0 : Fin 1) ⟨j.val, by omega⟩)) (fun j => w8 (ix2 (0 : Fin 1) j))
          (fun k j => w5 (ix2 k ⟨j.val + 384, by omega⟩)) (fun k j => w9 (ix2 k j))
          (fun j => w6 (ix2 (0 : Fin 1) ⟨j.val + 384, by omega⟩)) (fun j => w10 (ix2 (0 : Fin 1) j)) q :=
  (chunkC_tanh_apply w5 w6 w7 w8 w9 w10 a0 a1 a2 a3 a4 p q).trans (cellCTanh_eq _ _ _ _ _ _ _ _ _ _ _ _ _ _)

/-- The stored hidden chunk at an entry is the hidden entry of row `p` of the loads. -/
theorem chunkH_apply (p : Fin 256) (q : Fin 128) :
    chunkH w5 w6 w7 w8 w9 w10 a0 a1 a2 a3 a4 (ix2 p q)
      = cellH (fun k => a4 (ix2 p k)) (fun k => a0 (ix2 p k)) (fun k => a2 (ix2 p k)) (a1 (ix2 p q)) (a3 (ix2 p q))
          (fun k j => w5 (ix2 k ⟨j.val, by omega⟩)) (fun k j => w7 (ix2 k j))
          (fun j => w6 (ix2 (0 : Fin 1) ⟨j.val, by omega⟩)) (fun j => w8 (ix2 (0 : Fin 1) j))
          (fun k j => w5 (ix2 k ⟨j.val + 384, by omega⟩)) (fun k j => w9 (ix2 k j))
          (fun j => w6 (ix2 (0 : Fin 1) ⟨j.val + 384, by omega⟩)) (fun j => w10 (ix2 (0 : Fin 1) j)) q := by
  rw [← cellHTanh_eq]
  unfold chunkH k0_pay6 cellHTanh
  show k0_pay13 (k0_pay1 w5) (k0_pay2 w6) (k0_pay3 w7) (k0_pay4 w8) a0 a2 a4 (ix2 p q)
      * Ideal.tanh (chunkC w5 w6 w7 w8 w9 w10 a0 a1 a2 a3 a4 (ix2 p q)) = _
  rw [gateO_apply, chunkC_tanh_apply]

end Entries

end Cert.KernelIdeal.Chunk

end
-- ==== Proof.BlockCell.lean ====
/-
  What the kernel leaves in an output's 4096-row staging block after one grid point.

  The body's loop runs 16 trips; trip k loads rows 256·k … 256·k + 255 of the five row-streamed input blocks and stores
  the new hidden and cell chunks over the same rows of the two output blocks. By ChunkCell.lean, entry (p, q) of a stored
  chunk is the cell of row p of the trip's loads, and row p of a load of rows 256·k … is row 256·k + p of the block: so
  every store's payload is the restriction to its rows of ONE function of the block index, the cell of row r of the input
  blocks at column q. The 16 stores tile the block, hence the block ends holding that function everywhere.
-/
import proofs.«181306_j88519275971251_2_alg».proof.Proof.Gen.KernelIdeal.Frame
import proofs.«181306_j88519275971251_2_alg».proof.Proof.ChunkCell
import Idealize.ShloMosaic.Lib.Pipeline.Value
import Idealize.ShloMosaic.Lib.Pipeline.FrameBody

set_option maxRecDepth 16384

noncomputable section

namespace Cert.KernelIdeal.Block

open Cert.KernelIdeal Cert.KernelIdeal.Gen Cert.KernelIdeal.Chunk Idealize.ShloMosaic Idealize.ShloMosaic.TcCoe
open Idealize.ShloMosaic.ValueIdx Idealize.SL.Sem Cert.TreeCell

/-- Rows 256·k … 256·k + 255 of a 4096-row block: the rectangle trip `k` loads and stores through. -/
abbrev band (k : Fin k0_t1_loop.trips) : Rect S4096x128 :=
  Rect.unit (s := S4096x128) (k0_off1 k) S256x128.size (k0_off1_inb k)

/-- Entry (p, c) of rows 256·k … of a block is the block's entry at row 256·k + p. -/
theorem ld_band (X : Vec Ideal S4096x128 .f32) (k : Fin k0_t1_loop.trips) (p : Fin 256) (cl : Fin 128) (R : Fin 4096)
    (hR : R.val = k0_off1 k 0 + p.val) : View.ld X (band k) (ix2 p cl) = X (ix2 R cl) := by
  show X ((band k).idx (ix2 p cl)) = _
  refine congrArg X (funext fun a => Fin.ext ?_)
  have h1 : k0_off1 k 1 = 0 := by rw [k0_off1_eq]; rfl
  match a with
  | ⟨0, _⟩ => show k0_off1 k 0 + 1 * p.val = R.val; omega
  | ⟨1, _⟩ => show k0_off1 k 1 + 1 * cl.val = cl.val; omega

section BlockFunctions

variable (x0 x1 x2 x3 x4 : Vec Ideal S4096x128 .f32) (x5 : Vec Ideal S128x512 .bf16) (x6 : Vec Ideal S1x512 .f32) (x7 : Vec Ideal S128x384 .bf16) (x8 : Vec Ideal S1x384 .f32) (x9 : Vec Ideal S128x128 .bf16) (x10 : Vec Ideal S1x128 .f32)

/-- The new cell entry at row `r`, column `q` of a block, from the input blocks. -/
def blockC (r : Fin 4096) (q : Fin 128) : EReal :=
  cellC (fun k => x4 (ix2 r k)) (fun k => x0 (ix2 r k)) (fun k => x2 (ix2 r k)) (x1 (ix2 r q)) (x3 (ix2 r q))
    (fun k j => x5 (ix2 k ⟨j.val, by omega⟩)) (fun k j => x7 (ix2 k j))
    (fun j => x6 (ix2 (0 : Fin 1) ⟨j.val, by omega⟩)) (fun j => x8 (ix2 (0 : Fin 1) j))
    (fun k j => x5 (ix2 k ⟨j.val + 384, by omega⟩)) (fun k j => x9 (ix2 k j))
    (fun j => x6 (ix2 (0 : Fin 1) ⟨j.val + 384, by omega⟩)) (fun j => x10 (ix2 (0 : Fin 1) j)) q

/-- The new hidden entry at row `r`, column `q` of a block. -/
def blockH (r : Fin 4096) (q : Fin 128) : EReal :=
  cellH (fun k => x4 (ix2 r k)) (fun k => x0 (ix2 r k)) (fun k => x2 (ix2 r k)) (x1 (ix2 r q)) (x3 (ix2 r q))
    (fun k j => x5 (ix2 k ⟨j.val, by omega⟩)) (fun k j => x7 (ix2 k j))
    (fun j => x6 (ix2 (0 : Fin 1) ⟨j.val, by omega⟩)) (fun j => x8 (ix2 (0 : Fin 1) j))
    (fun k j => x5 (ix2 k ⟨j.val + 384, by omega⟩)) (fun k j => x9 (ix2 k j))
    (fun j => x6 (ix2 (0 : Fin 1) ⟨j.val + 384, by omega⟩)) (fun j => x10 (ix2 (0 : Fin 1) j)) q

/-- The same as functions of the block index. -/
def blockCAt : S4096x128.Idx → EReal := fun y => blockC x0 x1 x2 x3 x4 x5 x6 x7 x8 x9 x10 ⟨(y 0).val, idx2_lt0 y⟩ ⟨(y 1).val, idx2_lt1 y⟩
def blockHAt : S4096x128.Idx → EReal := fun y => blockH x0 x1 x2 x3 x4 x5 x6 x7 x8 x9 x10 ⟨(y 0).val, idx2_lt0 y⟩ ⟨(y 1).val, idx2_lt1 y⟩

end BlockFunctions

section Pieces

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x384 .bf16) (harg8 : arg8.IsWhole) (arg9 : Memref sig .tc .vmem S1x384 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S4096x128 .f32) (harg13 : arg13.IsWhole)
  (v0 : Vec Ideal S128x512 .bf16) (v2 : Vec Ideal S1x512 .f32) (v4 : Vec Ideal S128x384 .bf16) (v6 : Vec Ideal S1x384 .f32) (v8 : Vec Ideal S128x128 .bf16) (v10 : Vec Ideal S1x128 .f32)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
  (GH GC : S4096x128.Idx → EReal)

/-- If each trip's stored chunks are the restrictions of `GH`, `GC` to the trip's rows, then so is every piece the
    first `n` trips leave in the two output blocks. -/
theorem pieces_agree
    (hH : ∀ (k : Fin k0_t1_loop.trips) (x : (band k).shape.Idx),
      chunkH v0 v2 v4 v6 v8 v10 (View.readAt (Elt Ideal) arg1.view (band k).toLoadRect X1) (View.readAt (Elt Ideal) arg2.view (band k).toLoadRect X2) (View.readAt (Elt Ideal) arg3.view (band k).toLoadRect X3) (View.readAt (Elt Ideal) arg4.view (band k).toLoadRect X4) (View.readAt (Elt Ideal) arg5.view (band k).toLoadRect X5) x = GH ((band k).emb x))
    (hC : ∀ (k : Fin k0_t1_loop.trips) (x : (band k).shape.Idx),
      chunkC v0 v2 v4 v6 v8 v10 (View.readAt (Elt Ideal) arg1.view (band k).toLoadRect X1) (View.readAt (Elt Ideal) arg2.view (band k).toLoadRect X2) (View.readAt (Elt Ideal) arg3.view (band k).toLoadRect X3) (View.readAt (Elt Ideal) arg4.view (band k).toLoadRect X4) (View.readAt (Elt Ideal) arg5.view (band k).toLoadRect X5) x = GC ((band k).emb x)) :
    ∀ n : ℕ, n ≤ k0_t1_loop.trips →
      (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 v8 v10 X1 X2 X3 X4 X5 n).1, ∀ x : p.1.shape.Idx, p.2 x = GH (p.1.emb x))
      ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 v8 v10 X1 X2 X3 X4 X5 n).2, ∀ x : p.1.shape.Idx, p.2 x = GC (p.1.emb x))
  | 0, _ => ⟨fun p hp => absurd hp List.not_mem_nil, fun p hp => absurd hp List.not_mem_nil⟩
  | n + 1, hn => by
    have hlt : n < k0_t1_loop.trips := hn
    have ih := pieces_agree hH hC n (Nat.le_of_succ_le hn)
    have hs : pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 v8 v10 X1 X2 X3 X4 X5 (n + 1) = _ :=
      pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 v2 v4 v6 v8 v10 X1 X2 X3 X4 X5 ⟨n, hlt⟩
    rw [hs]
    constructor
    · intro p hp x
      rcases List.mem_append.mp hp with h | h
      · unfold tripL_k0_t1 trip_k0_t1 at h
        dsimp only at h
        rw [List.mem_singleton] at h
        subst h
        exact hH ⟨n, hlt⟩ x
      · exact ih.1 p h x
    · intro p hp x
      rcases List.mem_append.mp hp with h | h
      · unfold tripL_k0_t1 trip_k0_t1 at h
        dsimp only at h
        rw [List.mem_singleton] at h
        subst h
        exact hC ⟨n, hlt⟩ x
      · exact ih.2 p h x

end Pieces

section Outputs

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x384 .bf16) (harg8 : arg8.IsWhole) (arg9 : Memref sig .tc .vmem S1x384 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S4096x128 .f32) (harg13 : arg13.IsWhole)
  (x0 x1 x2 x3 x4 : Vec Ideal S4096x128 .f32) (x5 : Vec Ideal S128x512 .bf16) (x6 : Vec Ideal S1x512 .f32) (x7 : Vec Ideal S128x384 .bf16) (x8 : Vec Ideal S1x384 .f32) (x9 : Vec Ideal S128x128 .bf16) (x10 : Vec Ideal S1x128 .f32)

/-- The block functions depend on the index through its two coordinates only. -/
theorem blockHAt_of (r : Fin 4096) (q : Fin 128) (y : S4096x128.Idx) (h0 : (y 0).val = r.val) (h1 : (y 1).val = q.val) :
    blockHAt x0 x1 x2 x3 x4 x5 x6 x7 x8 x9 x10 y = blockH x0 x1 x2 x3 x4 x5 x6 x7 x8 x9 x10 r q := by
  unfold blockHAt
  rw [show (⟨(y 0).val, idx2_lt0 y⟩ : Fin 4096) = r from Fin.ext h0, show (⟨(y 1).val, idx2_lt1 y⟩ : Fin 128) = q from Fin.ext h1]

theorem blockCAt_of (r : Fin 4096) (q : Fin 128) (y : S4096x128.Idx) (h0 : (y 0).val = r.val) (h1 : (y 1).val = q.val) :
    blockCAt x0 x1 x2 x3 x4 x5 x6 x7 x8 x9 x10 y = blockC x0 x1 x2 x3 x4 x5 x6 x7 x8 x9 x10 r q := by
  unfold blockCAt
  rw [show (⟨(y 0).val, idx2_lt0 y⟩ : Fin 4096) = r from Fin.ext h0, show (⟨(y 1).val, idx2_lt1 y⟩ : Fin 128) = q from Fin.ext h1]

/-- A load of a whole staging buffer reads its contents. -/
theorem whole_load {S : Shape} {e : EltTy} (a : Memref sig .tc .vmem S e) (ha : a.IsWhole) (X : S.Idx → Elt Ideal e)
    {off : Fin S.rank → Nat} (hz : off = fun _ => 0) (inb : ∀ d, off d + S.size d ≤ S.size d) :
    View.readAt (Elt Ideal) a.view (Rect.unit off S.size inb).toLoadRect (ha.unread X) = X := by
  rw [View.readAt_eq_ld, ha.read_unread]
  exact View.ld_unit_zero hz inb X

theorem hz2 : (![0, 0] : Fin 2 → Nat) = fun _ => 0 := funext fun a => by fin_cases a <;> rfl

/-- Trip `k`'s stored hidden chunk is the block's hidden function on the trip's rows. -/
theorem tripH_agree (k : Fin k0_t1_loop.trips) (x : (band k).shape.Idx) :
    chunkH x5 x6 x7 x8 x9 x10 (View.readAt (Elt Ideal) arg1.view (band k).toLoadRect (harg1.unread x0)) (View.readAt (Elt Ideal) arg2.view (band k).toLoadRect (harg2.unread x1)) (View.readAt (Elt Ideal) arg3.view (band k).toLoadRect (harg3.unread x2)) (View.readAt (Elt Ideal) arg4.view (band k).toLoadRect (harg4.unread x3)) (View.readAt (Elt Ideal) arg5.view (band k).toLoadRect (harg5.unread x4)) x = blockHAt x0 x1 x2 x3 x4 x5 x6 x7 x8 x9 x10 ((band k).emb x) := by
  obtain ⟨p, q, rfl⟩ : ∃ (p : Fin 256) (q : Fin 128), x = ix2 p q := ⟨x 0, x 1, eq_ix2 x⟩
  have hb : k0_off1 k 0 + 256 ≤ 4096 := k0_off1_inb k 0
  have h1 : k0_off1 k 1 = 0 := by rw [k0_off1_eq]; rfl
  have hR : k0_off1 k 0 + p.val < 4096 := by have := p.isLt; omega
  rw [chunkH_apply, blockHAt_of x0 x1 x2 x3 x4 x5 x6 x7 x8 x9 x10 ⟨k0_off1 k 0 + p.val, hR⟩ q ((band k).emb (ix2 p q))
    (by show k0_off1 k 0 + 1 * p.val = k0_off1 k 0 + p.val; omega) (by show k0_off1 k 1 + 1 * q.val = q.val; omega)]
  simp only [View.readAt_eq_ld, Memref.IsWhole.read_unread]
  have e4 : (fun kk : Fin 128 => View.ld x4 (band k) (ix2 p kk)) = fun kk => x4 (ix2 ⟨k0_off1 k 0 + p.val, hR⟩ kk) :=
    funext fun kk => ld_band x4 k p kk ⟨k0_off1 k 0 + p.val, hR⟩ rfl
  have e0 : (fun kk : Fin 128 => View.ld x0 (band k) (ix2 p kk)) = fun kk => x0 (ix2 ⟨k0_off1 k 0 + p.val, hR⟩ kk) :=
    funext fun kk => ld_band x0 k p kk ⟨k0_off1 k 0 + p.val, hR⟩ rfl
  have e2 : (fun kk : Fin 128 => View.ld x2 (band k) (ix2 p kk)) = fun kk => x2 (ix2 ⟨k0_off1 k 0 + p.val, hR⟩ kk) :=
    funext fun kk => ld_band x2 k p kk ⟨k0_off1 k 0 + p.val, hR⟩ rfl
  rw [e4, e0, e2, ld_band x1 k p q ⟨k0_off1 k 0 + p.val, hR⟩ rfl, ld_band x3 k p q ⟨k0_off1 k 0 + p.val, hR⟩ rfl]
  unfold blockH
  rfl

/-- Trip `k`'s stored cell chunk is the block's cell function on the trip's rows. -/
theorem tripC_agree (k : Fin k0_t1_loop.trips) (x : (band k).shape.Idx) :
    chunkC x5 x6 x7 x8 x9 x10 (View.readAt (Elt Ideal) arg1.view (band k).toLoadRect (harg1.unread x0)) (View.readAt (Elt Ideal) arg2.view (band k).toLoadRect (harg2.unread x1)) (View.readAt (Elt Ideal) arg3.view (band k).toLoadRect (harg3.unread x2)) (View.readAt (Elt Ideal) arg4.view (band k).toLoadRect (harg4.unread x3)) (View.readAt (Elt Ideal) arg5.view (band k).toLoadRect (harg5.unread x4)) x = blockCAt x0 x1 x2 x3 x4 x5 x6 x7 x8 x9 x10 ((band k).emb x) := by
  obtain ⟨p, q, rfl⟩ : ∃ (p : Fin 256) (q : Fin 128), x = ix2 p q := ⟨x 0, x 1, eq_ix2 x⟩
  have hb : k0_off1 k 0 + 256 ≤ 4096 := k0_off1_inb k 0
  have h1 : k0_off1 k 1 = 0 := by rw [k0_off1_eq]; rfl
  have hR : k0_off1 k 0 + p.val < 4096 := by have := p.isLt; omega
  rw [chunkC_apply, blockCAt_of x0 x1 x2 x3 x4 x5 x6 x7 x8 x9 x10 ⟨k0_off1 k 0 + p.val, hR⟩ q ((band k).emb (ix2 p q))
    (by show k0_off1 k 0 + 1 * p.val = k0_off1 k 0 + p.val; omega) (by show k0_off1 k 1 + 1 * q.val = q.val; omega)]
  simp only [View.readAt_eq_ld, Memref.IsWhole.read_unread]
  have e4 : (fun kk : Fin 128 => View.ld x4 (band k) (ix2 p kk)) = fun kk => x4 (ix2 ⟨k0_off1 k 0 + p.val, hR⟩ kk) :=
    funext fun kk => ld_band x4 k p kk ⟨k0_off1 k 0 + p.val, hR⟩ rfl
  have e0 : (fun kk : Fin 128 => View.ld x0 (band k) (ix2 p kk)) = fun kk => x0 (ix2 ⟨k0_off1 k 0 + p.val, hR⟩ kk) :=
    funext fun kk => ld_band x0 k p kk ⟨k0_off1 k 0 + p.val, hR⟩ rfl
  have e2 : (fun kk : Fin 128 => View.ld x2 (band k) (ix2 p kk)) = fun kk => x2 (ix2 ⟨k0_off1 k 0 + p.val, hR⟩ kk) :=
    funext fun kk => ld_band x2 k p kk ⟨k0_off1 k 0 + p.val, hR⟩ rfl
  rw [e4, e0, e2, ld_band x1 k p q ⟨k0_off1 k 0 + p.val, hR⟩ rfl, ld_band x3 k p q ⟨k0_off1 k 0 + p.val, hR⟩ rfl]
  unfold blockC
  rfl

/-- After the body, the hidden output's staging block holds the block's hidden function of the input blocks. -/
theorem out11_eq :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = blockHAt x0 x1 x2 x3 x4 x5 x6 x7 x8 x9 x10 := by
  funext y
  unfold out0_A_11
  rw [View.read_writes_junk_eq_canon]
  refine View.canon_apply_of_pieces (blockHAt x0 x1 x2 x3 x4 x5 x6 x7 x8 x9 x10) _ ?_ y (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 y)
  unfold kernelRun0_A
  dsimp only
  rw [whole_load arg6 harg6 x5 hz2, whole_load arg7 harg7 x6 hz2, whole_load arg8 harg8 x7 hz2,
    whole_load arg9 harg9 x8 hz2, whole_load arg10 harg10 x9 hz2, whole_load arg11 harg11 x10 hz2]
  exact (pieces_agree Variants.none c none i arg1 harg1 arg2 harg2 arg3 harg3 arg4 harg4 arg5 harg5 arg6 harg6 arg7 harg7 arg8 harg8 arg9 harg9 arg10 harg10 arg11 harg11 arg12 harg12 arg13 harg13 x5 x6 x7 x8 x9 x10
    (harg1.unread x0) (harg2.unread x1) (harg3.unread x2) (harg4.unread x3) (harg5.unread x4)
    (blockHAt x0 x1 x2 x3 x4 x5 x6 x7 x8 x9 x10) (blockCAt x0 x1 x2 x3 x4 x5 x6 x7 x8 x9 x10)
    (tripH_agree arg1 harg1 arg2 harg2 arg3 harg3 arg4 harg4 arg5 harg5 x0 x1 x2 x3 x4 x5 x6 x7 x8 x9 x10) (tripC_agree arg1 harg1 arg2 harg2 arg3 harg3 arg4 harg4 arg5 harg5 x0 x1 x2 x3 x4 x5 x6 x7 x8 x9 x10) _ (le_refl _)).1

/-- After the body, the cell output's staging block holds the block's cell function of the input blocks. -/
theorem out12_eq :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = blockCAt x0 x1 x2 x3 x4 x5 x6 x7 x8 x9 x10 := by
  funext y
  unfold out0_A_12
  rw [View.read_writes_junk_eq_canon]
  refine View.canon_apply_of_pieces (blockCAt x0 x1 x2 x3 x4 x5 x6 x7 x8 x9 x10) _ ?_ y (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 y)
  unfold kernelRun0_A
  dsimp only
  rw [whole_load arg6 harg6 x5 hz2, whole_load arg7 harg7 x6 hz2, whole_load arg8 harg8 x7 hz2,
    whole_load arg9 harg9 x8 hz2, whole_load arg10 harg10 x9 hz2, whole_load arg11 harg11 x10 hz2]
  exact (pieces_agree Variants.none c none i arg1 harg1 arg2 harg2 arg3 harg3 arg4 harg4 arg5 harg5 arg6 harg6 arg7 harg7 arg8 harg8 arg9 harg9 arg10 harg10 arg11 harg11 arg12 harg12 arg13 harg13 x5 x6 x7 x8 x9 x10
    (harg1.unread x0) (harg2.unread x1) (harg3.unread x2) (harg4.unread x3) (harg5.unread x4)
    (blockHAt x0 x1 x2 x3 x4 x5 x6 x7 x8 x9 x10) (blockCAt x0 x1 x2 x3 x4 x5 x6 x7 x8 x9 x10)
    (tripH_agree arg1 harg1 arg2 harg2 arg3 harg3 arg4 harg4 arg5 harg5 x0 x1 x2 x3 x4 x5 x6 x7 x8 x9 x10) (tripC_agree arg1 harg1 arg2 harg2 arg3 harg3 arg4 harg4 arg5 harg5 x0 x1 x2 x3 x4 x5 x6 x7 x8 x9 x10) _ (le_refl _)).2

end Outputs

end Cert.KernelIdeal.Block

end
-- ==== Proof.Target.lean ====
/-
  The two result arrays of the tree-LSTM cell as functions of the thirteen argument arrays.

  Entry (r, q) of the new cell array and of the new hidden array is the cell of Spec.lean applied to row r of the five
  row arrays (left hidden X0, left cell X1, right hidden X2, right cell X3, input X4), with the weights W_ioux X5, b_ioux X6,
  W_iouh X7, b_iouh X8, W_fx X9, b_fx X10, W_fh X11, b_fh X12 read as they are given. Both programs are shown to end with
  exactly these two functions in their result arrays.
-/
import proofs.«181306_j88519275971251_2_alg».proof.Proof.Spec
import Idealize.ShloMosaic.Lib.ValueIdx

noncomputable section

namespace Cert.TreeCell

open Idealize.ShloMosaic Idealize.ShloMosaic.ValueIdx

variable (X0 X1 X2 X3 X4 : (⟨2, ![262144, 128]⟩ : Shape).Idx → EReal)
  (X5 : (⟨2, ![128, 384]⟩ : Shape).Idx → EReal) (X6 : (⟨1, ![384]⟩ : Shape).Idx → EReal)
  (X7 : (⟨2, ![128, 384]⟩ : Shape).Idx → EReal) (X8 : (⟨1, ![384]⟩ : Shape).Idx → EReal)
  (X9 : (⟨2, ![128, 128]⟩ : Shape).Idx → EReal) (X10 : (⟨1, ![128]⟩ : Shape).Idx → EReal)
  (X11 : (⟨2, ![128, 128]⟩ : Shape).Idx → EReal) (X12 : (⟨1, ![128]⟩ : Shape).Idx → EReal)

/-- The new cell array. -/
def outC : (⟨2, ![262144, 128]⟩ : Shape).Idx → EReal := fun i =>
  cellC (fun k => X4 (ix2 ⟨(i 0).val, idx2_lt0 i⟩ k)) (fun k => X0 (ix2 ⟨(i 0).val, idx2_lt0 i⟩ k)) (fun k => X2 (ix2 ⟨(i 0).val, idx2_lt0 i⟩ k))
      (X1 (ix2 ⟨(i 0).val, idx2_lt0 i⟩ ⟨(i 1).val, idx2_lt1 i⟩)) (X3 (ix2 ⟨(i 0).val, idx2_lt0 i⟩ ⟨(i 1).val, idx2_lt1 i⟩))
      (fun k j => X5 (ix2 k j)) (fun k j => X7 (ix2 k j)) (fun j => X6 (ix1 j)) (fun j => X8 (ix1 j))
      (fun k j => X9 (ix2 k j)) (fun k j => X11 (ix2 k j)) (fun j => X10 (ix1 j)) (fun j => X12 (ix1 j)) ⟨(i 1).val, idx2_lt1 i⟩

/-- The new hidden array. -/
def outH : (⟨2, ![262144, 128]⟩ : Shape).Idx → EReal := fun i =>
  cellH (fun k => X4 (ix2 ⟨(i 0).val, idx2_lt0 i⟩ k)) (fun k => X0 (ix2 ⟨(i 0).val, idx2_lt0 i⟩ k)) (fun k => X2 (ix2 ⟨(i 0).val, idx2_lt0 i⟩ k))
      (X1 (ix2 ⟨(i 0).val, idx2_lt0 i⟩ ⟨(i 1).val, idx2_lt1 i⟩)) (X3 (ix2 ⟨(i 0).val, idx2_lt0 i⟩ ⟨(i 1).val, idx2_lt1 i⟩))
      (fun k j => X5 (ix2 k j)) (fun k j => X7 (ix2 k j)) (fun j => X6 (ix1 j)) (fun j => X8 (ix1 j))
      (fun k j => X9 (ix2 k j)) (fun k j => X11 (ix2 k j)) (fun j => X10 (ix1 j)) (fun j => X12 (ix1 j)) ⟨(i 1).val, idx2_lt1 i⟩

end Cert.TreeCell

end
-- ==== Proof.LibConcatWide.lean ====
/-
  Two matrices set side by side, read at an entry.

  The concatenation along the columns of an [n, w₁] matrix a and an [n, w₂] matrix b is the [n, W] matrix (W = w₁ + w₂)
  whose entry (r, k) is a(r, k) for k < w₁ and b(r, k − w₁) from column w₁ on.
-/
import Idealize.ShloMosaic.Lib.Pipeline.Value
import Idealize.ShloMosaic.Lib.ValueIdx

noncomputable section

namespace Cert.Lib

open Idealize.ShloMosaic Idealize.ShloMosaic.ValueIdx

variable {α : Type}

/-- Two matrices side by side, read at a column of the first: that entry of the first. -/
theorem concat_wide_left {n w1 w2 W : Nat}
    (h : Shape.Concatenates [(⟨2, ![n, w1]⟩ : Shape), ⟨2, ![n, w2]⟩] ⟨2, ![n, W]⟩ 1)
    (a : (⟨2, ![n, w1]⟩ : Shape).Idx → α) (b : (⟨2, ![n, w2]⟩ : Shape).Idx → α) (r : Fin n) (k : Fin W)
    (hk : k.val < w1) :
    concatenate ⟨2, ![n, W]⟩ 1 [⟨⟨2, ![n, w1]⟩, a⟩, ⟨⟨2, ![n, w2]⟩, b⟩] h (ix2 r k) = a (ix2 r ⟨k.val, hk⟩) :=
  concatenate_pair_apply_left 1 a b h (ix2 r k) rfl (ix2 r ⟨k.val, hk⟩)
    (fun c => match c with | ⟨0, _⟩ => rfl | ⟨1, _⟩ => rfl)

/-- … and at a column past the first: the second's entry, the first's width less. -/
theorem concat_wide_right {n w1 w2 W : Nat}
    (h : Shape.Concatenates [(⟨2, ![n, w1]⟩ : Shape), ⟨2, ![n, w2]⟩] ⟨2, ![n, W]⟩ 1)
    (a : (⟨2, ![n, w1]⟩ : Shape).Idx → α) (b : (⟨2, ![n, w2]⟩ : Shape).Idx → α) (r : Fin n) (k : Fin W)
    (hk : w1 ≤ k.val) (hlt : k.val - w1 < w2) :
    concatenate ⟨2, ![n, W]⟩ 1 [⟨⟨2, ![n, w1]⟩, a⟩, ⟨⟨2, ![n, w2]⟩, b⟩] h (ix2 r k) = b (ix2 r ⟨k.val - w1, hlt⟩) :=
  concatenate_pair_apply_right 1 a b h (ix2 r k) rfl rfl (ix2 r ⟨k.val - w1, hlt⟩)
    (fun c hc => match c, hc with
      | ⟨0, _⟩, _ => rfl
      | ⟨1, _⟩, hc => absurd rfl hc)
    (by show (k.val - w1) + w1 = k.val; omega)

end Cert.Lib

end
-- ==== Proof.LibRefReads.lean ====
import Idealize.ShloMosaic.PureOps.Ideal
import Idealize.ShloMosaic.PureOps.Ideal.Laws
import Idealize.ShloMosaic.Lib.ValueIdx
import Idealize.ShloMosaic.Lib.Pipeline.Value

/-!
# Small general facts for reading a host program index by index

A sum over a rank-1 index set is the sum over its coordinate. The words a `jnp.diagonal` builds its start indices
from: a number below `2³¹`, as a 32-bit word, is not below zero in the signed order and reads back as itself. The
float made from the bit "two numbers are equal" is `1` or `0`. A two-column `gather` out of a matrix reads the
matrix at the row and the column its start indices name. A concatenation of two pieces — matrices stacked by rows,
vectors laid end to end, one-column matrices set side by side — read at an index is the piece the index falls in.
-/

noncomputable section

open scoped BigOperators

namespace Cert.RefLib

open Idealize.ShloMosaic Idealize.ShloMosaic.ValueIdx

/-! ## Rank-1 index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A number below `2³¹`, as a 32-bit word, is not below zero in the signed order. -/
theorem toInt_ofNat32 (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

theorem cmpi_slt_ofNat_zero (n : Nat) (hn : n < 2 ^ 31) : IntOp.cmpi .slt (BitVec.ofNat 32 n) 0#32 = 0#1 := by
  have h : (BitVec.ofNat 32 n).slt 0#32 = false := by
    rw [BitVec.slt, toInt_ofNat32 n hn]
    simp only [BitVec.toInt_zero, decide_eq_false_iff_not, not_lt]
    omega
  show BitVec.ofBool ((BitVec.ofNat 32 n).slt 0#32) = 0#1
  rw [h]; rfl

/-- … and read back as a signed integer it is the number. -/
theorem toInt_toNat_ofNat (n : Nat) (hn : n < 2 ^ 31) : (BitVec.ofNat 32 n).toInt.toNat = n := by
  rw [toInt_ofNat32 n hn]; rfl

/-- The sum of two 32-bit words that are numbers with a sum below `2³²` is the word of the sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The float made from the bit "the words of `a` and `b` are equal" is `1` when `a = b` and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    simp [h, hne]

section Pick
variable {α : Type}

/-- The dimension numbers of a `gather` that picks single entries out of a matrix `[N, M]`: start indices `[R, 2]`
    (row and column per result entry), both operand axes collapsed, result `[R]`. -/
abbrev pickDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem pick_coord0 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 0 + (pickDims N M R wf).batchCoord (ix1 r) 0
      + (pickDims N M R wf).offCoord (ix1 r) 0 = min (idx (ix2 r 0)).toInt.toNat (N - 1) := by
  have hm : (0 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (0 : Fin 2) (pickDims N M R wf).startIndexMap,
      List.idxOf_lt_length_iff.2 hm⟩ = ix2 r 0 := by
    funext b; refine Fin.ext ?_
    match b with
    | ⟨0, _⟩ => rfl
    | ⟨1, _⟩ => rfl
  rw [hsi]
  rfl

theorem pick_coord1 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 1 + (pickDims N M R wf).batchCoord (ix1 r) 1
      + (pickDims N M R wf).offCoord (ix1 r) 1 = min (idx (ix2 r 1)).toInt.toNat (M - 1) := by
  have hm : (1 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (1 : Fin 2) (pickDims N M R wf).startIndexMap,
      List.idxOf_lt_length_iff.2 hm⟩ = ix2 r 1 := by
    funext b; refine Fin.ext ?_
    match b with
    | ⟨0, _⟩ => rfl
    | ⟨1, _⟩ => rfl
  rw [hsi]
  rfl

/-- Such a gather at result entry `r` reads the matrix at the row `idx[r, 0]` and the column `idx[r, 1]`, each read
    as a signed integer and clamped into the matrix. -/
theorem gather_pick_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pickDims N M R wf) x idx (ix1 r)
      = x (ix2 (⟨min (idx (ix2 r 0)).toInt.toNat (N - 1), by omega⟩ : Fin N)
               (⟨min (idx (ix2 r 1)).toInt.toNat (M - 1), by omega⟩ : Fin M)) := by
  unfold Host.gather
  congr 1
  funext a
  refine Fin.ext ?_
  match a with
  | ⟨0, _⟩ => exact pick_coord0 wf idx r
  | ⟨1, _⟩ => exact pick_coord1 wf idx r

end Pick

section Concat
variable {α : Type}

/-- Two matrices stacked by rows, read at a row of the first: that row of the first. -/
theorem concat_rows_left {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : R.val < n1) :
    concatenate ⟨2, ![n, m]⟩ 0 [⟨⟨2, ![n1, m]⟩, a⟩, ⟨⟨2, ![n2, m]⟩, b⟩] h (ix2 R d) = a (ix2 ⟨R.val, hR⟩ d) :=
  concatenate_pair_apply_left 0 a b h (ix2 R d) rfl (ix2 ⟨R.val, hR⟩ d)
    (fun c => match c with | ⟨0, _⟩ => rfl | ⟨1, _⟩ => rfl)

/-- … and at a row past the first: the second's row, the first's row count less. -/
theorem concat_rows_right {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : n1 ≤ R.val) (hlt : R.val - n1 < n2) :
    concatenate ⟨2, ![n, m]⟩ 0 [⟨⟨2, ![n1, m]⟩, a⟩, ⟨⟨2, ![n2, m]⟩, b⟩] h (ix2 R d) = b (ix2 ⟨R.val - n1, hlt⟩ d) :=
  concatenate_pair_apply_right 0 a b h (ix2 R d) rfl rfl (ix2 ⟨R.val - n1, hlt⟩ d)
    (fun c hc => match c, hc with
      | ⟨0, _⟩, hc => absurd rfl hc
      | ⟨1, _⟩, _ => rfl)
    (by show (R.val - n1) + n1 = R.val; omega)

/-- Two vectors laid end to end, read in the first … -/
theorem concat_vec_left {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n) (hR : R.val < n1) :
    concatenate ⟨1, ![n]⟩ 0 [⟨⟨1, ![n1]⟩, a⟩, ⟨⟨1, ![n2]⟩, b⟩] h (ix1 R) = a (ix1 ⟨R.val, hR⟩) :=
  concatenate_pair_apply_left 0 a b h (ix1 R) rfl (ix1 ⟨R.val, hR⟩)
    (fun c => match c with | ⟨0, _⟩ => rfl)

/-- … and past it. -/
theorem concat_vec_right {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n)
    (hR : n1 ≤ R.val) (hlt : R.val - n1 < n2) :
    concatenate ⟨1, ![n]⟩ 0 [⟨⟨1, ![n1]⟩, a⟩, ⟨⟨1, ![n2]⟩, b⟩] h (ix1 R) = b (ix1 ⟨R.val - n1, hlt⟩) :=
  concatenate_pair_apply_right 0 a b h (ix1 R) rfl rfl (ix1 ⟨R.val - n1, hlt⟩)
    (fun c hc => match c, hc with
      | ⟨0, _⟩, hc => absurd rfl hc)
    (by show (R.val - n1) + n1 = R.val; omega)

/-- Two one-column matrices set side by side: column 0 is the first … -/
theorem concat_cols_left {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 0) = a (ix2 r 0) :=
  concatenate_pair_apply_left 1 a b h (ix2 r 0) rfl (ix2 r 0)
    (fun c => match c with | ⟨0, _⟩ => rfl | ⟨1, _⟩ => rfl)

/-- … and column 1 the second. -/
theorem concat_cols_right {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 1) = b (ix2 r 0) :=
  concatenate_pair_apply_right 1 a b h (ix2 r 1) rfl rfl (ix2 r 0)
    (fun c hc => match c, hc with
      | ⟨0, _⟩, _ => rfl
      | ⟨1, _⟩, hc => absurd rfl hc)
    (by rfl)

end Concat

end Cert.RefLib

end
-- ==== Proof.ArrayValue.lean ====
/-
  From 4096-row blocks to the whole result arrays.

  The grid has 64 points; point t stages rows 4096·t … 4096·t + 4095 of each of the five row arrays, the whole of the six
  small arrays (the packed weights and bias rows the host code prepared), and writes back rows 4096·t … of the two results.
  By BlockCell.lean the block a point writes back holds, at (r, q), the cell of row r of the point's input blocks, which is
  row 4096·t + r of the arrays: so what each point writes back is the restriction to its rows of ONE function of the array
  index, the 64 blocks cover the array, and the array ends holding that function. Last, the packed weights are read back:
  the input-side matrix is W_ioux and W_fx side by side, its bias row b_ioux followed by b_fx, and the other four are the
  arguments themselves in another float format or with a leading unit axis, so the function is the cell array of Target.lean.
-/
import proofs.«181306_j88519275971251_2_alg».proof.Proof.Gen.KernelIdeal.Value
import proofs.«181306_j88519275971251_2_alg».proof.Proof.BlockCell
import proofs.«181306_j88519275971251_2_alg».proof.Proof.Target
import proofs.«181306_j88519275971251_2_alg».proof.Proof.LibConcatWide
import proofs.«181306_j88519275971251_2_alg».proof.Proof.LibRefReads
import Idealize.ShloMosaic.Lib.StableHlo.Run
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Block Idealize.ShloMosaic Idealize.ShloMosaic.TcCoe
open Idealize.ShloMosaic.ValueIdx Idealize.SL.Sem Cert.TreeCell
open Idealize.ShloMosaic.Pipeline (Dat)

section Pure

variable (A0 A1 A2 A3 A4 : S262144x128.Idx → EReal) (w5 : Vec Ideal S128x512 .bf16) (w6 : Vec Ideal S1x512 .f32)
  (w7 : Vec Ideal S128x384 .bf16) (w8 : Vec Ideal S1x384 .f32) (w9 : Vec Ideal S128x128 .bf16) (w10 : Vec Ideal S1x128 .f32)

/-- The new cell entry at row `R`, column `q` of the arrays, with the weights as the kernel is handed them. -/
def arrCrow (R : Fin 262144) (q : Fin 128) : EReal :=
  cellC (fun k => A4 (ix2 R k)) (fun k => A0 (ix2 R k)) (fun k => A2 (ix2 R k)) (A1 (ix2 R q)) (A3 (ix2 R q))
    (fun k j => w5 (ix2 k ⟨j.val, by omega⟩)) (fun k j => w7 (ix2 k j))
    (fun j => w6 (ix2 (0 : Fin 1) ⟨j.val, by omega⟩)) (fun j => w8 (ix2 (0 : Fin 1) j))
    (fun k j => w5 (ix2 k ⟨j.val + 384, by omega⟩)) (fun k j => w9 (ix2 k j))
    (fun j => w6 (ix2 (0 : Fin 1) ⟨j.val + 384, by omega⟩)) (fun j => w10 (ix2 (0 : Fin 1) j)) q

/-- The new hidden entry at row `R`, column `q` of the arrays. -/
def arrHrow (R : Fin 262144) (q : Fin 128) : EReal :=
  cellH (fun k => A4 (ix2 R k)) (fun k => A0 (ix2 R k)) (fun k => A2 (ix2 R k)) (A1 (ix2 R q)) (A3 (ix2 R q))
    (fun k j => w5 (ix2 k ⟨j.val, by omega⟩)) (fun k j => w7 (ix2 k j))
    (fun j => w6 (ix2 (0 : Fin 1) ⟨j.val, by omega⟩)) (fun j => w8 (ix2 (0 : Fin 1) j))
    (fun k j => w5 (ix2 k ⟨j.val + 384, by omega⟩)) (fun k j => w9 (ix2 k j))
    (fun j => w6 (ix2 (0 : Fin 1) ⟨j.val + 384, by omega⟩)) (fun j => w10 (ix2 (0 : Fin 1) j)) q

def arrC : S262144x128.Idx → EReal := fun i => arrCrow A0 A1 A2 A3 A4 w5 w6 w7 w8 w9 w10 ⟨(i 0).val, idx2_lt0 i⟩ ⟨(i 1).val, idx2_lt1 i⟩
def arrH : S262144x128.Idx → EReal := fun i => arrHrow A0 A1 A2 A3 A4 w5 w6 w7 w8 w9 w10 ⟨(i 0).val, idx2_lt0 i⟩ ⟨(i 1).val, idx2_lt1 i⟩

/-- A block whose rows are rows `4096·o + r` of the arrays holds, at `y`, the array function at the index `y` names. -/

theorem blockH_is_array (B0 B1 B2 B3 B4 : Vec Ideal S4096x128 .f32) (o : ℕ) (ho : o * 4096 + 4096 ≤ 262144)
    (h0 : ∀ (r : Fin 4096) (k : Fin 128), B0 (ix2 r k) = A0 (ix2 ⟨o * 4096 + r.val, by have := r.isLt; omega⟩ k))
    (h1 : ∀ (r : Fin 4096) (k : Fin 128), B1 (ix2 r k) = A1 (ix2 ⟨o * 4096 + r.val, by have := r.isLt; omega⟩ k))
    (h2 : ∀ (r : Fin 4096) (k : Fin 128), B2 (ix2 r k) = A2 (ix2 ⟨o * 4096 + r.val, by have := r.isLt; omega⟩ k))
    (h3 : ∀ (r : Fin 4096) (k : Fin 128), B3 (ix2 r k) = A3 (ix2 ⟨o * 4096 + r.val, by have := r.isLt; omega⟩ k))
    (h4 : ∀ (r : Fin 4096) (k : Fin 128), B4 (ix2 r k) = A4 (ix2 ⟨o * 4096 + r.val, by have := r.isLt; omega⟩ k))
    (y : S4096x128.Idx) (i : S262144x128.Idx) (hi0 : (i 0).val = o * 4096 + (y 0).val) (hi1 : (i 1).val = (y 1).val) :
    blockHAt B0 B1 B2 B3 B4 w5 w6 w7 w8 w9 w10 y = arrH A0 A1 A2 A3 A4 w5 w6 w7 w8 w9 w10 i := by
  have hy0 : (y 0).val < 4096 := idx2_lt0 y
  have hR : (⟨(i 0).val, idx2_lt0 i⟩ : Fin 262144) = ⟨o * 4096 + (y 0).val, by omega⟩ := Fin.ext hi0
  have hQ : (⟨(i 1).val, idx2_lt1 i⟩ : Fin 128) = ⟨(y 1).val, idx2_lt1 y⟩ := Fin.ext hi1
  unfold blockHAt arrH
  rw [hR, hQ]
  unfold blockH arrHrow
  simp only [h0, h1, h2, h3, h4]

theorem blockC_is_array (B0 B1 B2 B3 B4 : Vec Ideal S4096x128 .f32) (o : ℕ) (ho : o * 4096 + 4096 ≤ 262144)
    (h0 : ∀ (r : Fin 4096) (k : Fin 128), B0 (ix2 r k) = A0 (ix2 ⟨o * 4096 + r.val, by have := r.isLt; omega⟩ k))
    (h1 : ∀ (r : Fin 4096) (k : Fin 128), B1 (ix2 r k) = A1 (ix2 ⟨o * 4096 + r.val, by have := r.isLt; omega⟩ k))
    (h2 : ∀ (r : Fin 4096) (k : Fin 128), B2 (ix2 r k) = A2 (ix2 ⟨o * 4096 + r.val, by have := r.isLt; omega⟩ k))
    (h3 : ∀ (r : Fin 4096) (k : Fin 128), B3 (ix2 r k) = A3 (ix2 ⟨o * 4096 + r.val, by have := r.isLt; omega⟩ k))
    (h4 : ∀ (r : Fin 4096) (k : Fin 128), B4 (ix2 r k) = A4 (ix2 ⟨o * 4096 + r.val, by have := r.isLt; omega⟩ k))
    (y : S4096x128.Idx) (i : S262144x128.Idx) (hi0 : (i 0).val = o * 4096 + (y 0).val) (hi1 : (i 1).val = (y 1).val) :
    blockCAt B0 B1 B2 B3 B4 w5 w6 w7 w8 w9 w10 y = arrC A0 A1 A2 A3 A4 w5 w6 w7 w8 w9 w10 i := by
  have hy0 : (y 0).val < 4096 := idx2_lt0 y
  have hR : (⟨(i 0).val, idx2_lt0 i⟩ : Fin 262144) = ⟨o * 4096 + (y 0).val, by omega⟩ := Fin.ext hi0
  have hQ : (⟨(i 1).val, idx2_lt1 i⟩ : Fin 128) = ⟨(y 1).val, idx2_lt1 y⟩ := Fin.ext hi1
  unfold blockCAt arrC
  rw [hR, hQ]
  unfold blockC arrCrow
  simp only [h0, h1, h2, h3, h4]

end Pure

section Frame

variable (m : (ℓ : Loc nD τ sig) → Buf (Elt Ideal) ℓ) (ρ : Dev nD → PrngReg)

/-- The printed index maps, decided over the 64 grid points: the five row windows and the two results move together,
    one block of rows per point; the six small windows stay at the origin. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = win0_11.index t (0 : Fin 2) ∧ win0_3.index t (1 : Fin 2) = 0
    ∧ win0_4.index t (0 : Fin 2) = win0_11.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem blk_row0 (c : Dev nD) (t : Fin cfg0.N) (r : Fin 4096) (k : Fin 128) (hb : win0_11.index t (0 : Fin 2) * 4096 + 4096 ≤ 262144) :
    iblk m c 0 t (ix2 r k) = V m c main_arg0 (ix2 ⟨win0_11.index t (0 : Fin 2) * 4096 + r.val, by have := r.isLt; omega⟩ k) := by
  have e := idx_facts t
  show V m c main_arg0 (((cfg0.win 0).blk t).view.emb (ix2 r k)) = _
  refine congrArg (V m c main_arg0) (funext fun a => Fin.ext ?_)
  match a with
  | ⟨0, _⟩ => show win0_0.index t (0 : Fin 2) * 4096 + 1 * r.val = win0_11.index t (0 : Fin 2) * 4096 + r.val; omega
  | ⟨1, _⟩ => show win0_0.index t (1 : Fin 2) * 128 + 1 * k.val = k.val; omega

theorem blk_row1 (c : Dev nD) (t : Fin cfg0.N) (r : Fin 4096) (k : Fin 128) (hb : win0_11.index t (0 : Fin 2) * 4096 + 4096 ≤ 262144) :
    iblk m c 1 t (ix2 r k) = V m c main_arg1 (ix2 ⟨win0_11.index t (0 : Fin 2) * 4096 + r.val, by have := r.isLt; omega⟩ k) := by
  have e := idx_facts t
  show V m c main_arg1 (((cfg0.win 1).blk t).view.emb (ix2 r k)) = _
  refine congrArg (V m c main_arg1) (funext fun a => Fin.ext ?_)
  match a with
  | ⟨0, _⟩ => show win0_1.index t (0 : Fin 2) * 4096 + 1 * r.val = win0_11.index t (0 : Fin 2) * 4096 + r.val; omega
  | ⟨1, _⟩ => show win0_1.index t (1 : Fin 2) * 128 + 1 * k.val = k.val; omega

theorem blk_row2 (c : Dev nD) (t : Fin cfg0.N) (r : Fin 4096) (k : Fin 128) (hb : win0_11.index t (0 : Fin 2) * 4096 + 4096 ≤ 262144) :
    iblk m c 2 t (ix2 r k) = V m c main_arg2 (ix2 ⟨win0_11.index t (0 : Fin 2) * 4096 + r.val, by have := r.isLt; omega⟩ k) := by
  have e := idx_facts t
  show V m c main_arg2 (((cfg0.win 2).blk t).view.emb (ix2 r k)) = _
  refine congrArg (V m c main_arg2) (funext fun a => Fin.ext ?_)
  match a with
  | ⟨0, _⟩ => show win0_2.index t (0 : Fin 2) * 4096 + 1 * r.val = win0_11.index t (0 : Fin 2) * 4096 + r.val; omega
  | ⟨1, _⟩ => show win0_2.index t (1 : Fin 2) * 128 + 1 * k.val = k.val; omega

theorem blk_row3 (c : Dev nD) (t : Fin cfg0.N) (r : Fin 4096) (k : Fin 128) (hb : win0_11.index t (0 : Fin 2) * 4096 + 4096 ≤ 262144) :
    iblk m c 3 t (ix2 r k) = V m c main_arg3 (ix2 ⟨win0_11.index t (0 : Fin 2) * 4096 + r.val, by have := r.isLt; omega⟩ k) := by
  have e := idx_facts t
  show V m c main_arg3 (((cfg0.win 3).blk t).view.emb (ix2 r k)) = _
  refine congrArg (V m c main_arg3) (funext fun a => Fin.ext ?_)
  match a with
  | ⟨0, _⟩ => show win0_3.index t (0 : Fin 2) * 4096 + 1 * r.val = win0_11.index t (0 : Fin 2) * 4096 + r.val; omega
  | ⟨1, _⟩ => show win0_3.index t (1 : Fin 2) * 128 + 1 * k.val = k.val; omega

theorem blk_row4 (c : Dev nD) (t : Fin cfg0.N) (r : Fin 4096) (k : Fin 128) (hb : win0_11.index t (0 : Fin 2) * 4096 + 4096 ≤ 262144) :
    iblk m c 4 t (ix2 r k) = V m c main_arg4 (ix2 ⟨win0_11.index t (0 : Fin 2) * 4096 + r.val, by have := r.isLt; omega⟩ k) := by
  have e := idx_facts t
  show V m c main_arg4 (((cfg0.win 4).blk t).view.emb (ix2 r k)) = _
  refine congrArg (V m c main_arg4) (funext fun a => Fin.ext ?_)
  match a with
  | ⟨0, _⟩ => show win0_4.index t (0 : Fin 2) * 4096 + 1 * r.val = win0_11.index t (0 : Fin 2) * 4096 + r.val; omega
  | ⟨1, _⟩ => show win0_4.index t (1 : Fin 2) * 128 + 1 * k.val = k.val; omega

theorem blk_whole5 (c : Dev nD) (t : Fin cfg0.N) : iblk m c 5 t = V m c main_v1 := by
  have e := idx_facts t
  funext y
  show V m c main_v1 (((cfg0.win 5).blk t).view.emb y) = V m c main_v1 y
  refine congrArg (V m c main_v1) (funext fun a => Fin.ext ?_)
  match a with
  | ⟨0, _⟩ => show win0_5.index t (0 : Fin 2) * 128 + 1 * (y 0).val = (y 0).val; omega
  | ⟨1, _⟩ => show win0_5.index t (1 : Fin 2) * 512 + 1 * (y 1).val = (y 1).val; omega

theorem blk_whole6 (c : Dev nD) (t : Fin cfg0.N) : iblk m c 6 t = V m c main_v3 := by
  have e := idx_facts t
  funext y
  show V m c main_v3 (((cfg0.win 6).blk t).view.emb y) = V m c main_v3 y
  refine congrArg (V m c main_v3) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem blk_whole7 (c : Dev nD) (t : Fin cfg0.N) : iblk m c 7 t = V m c main_v4 := by
  have e := idx_facts t
  funext y
  show V m c main_v4 (((cfg0.win 7).blk t).view.emb y) = V m c main_v4 y
  refine congrArg (V m c main_v4) (funext fun a => Fin.ext ?_)
  match a with
  | ⟨0, _⟩ => show win0_7.index t (0 : Fin 2) * 128 + 1 * (y 0).val = (y 0).val; omega
  | ⟨1, _⟩ => show win0_7.index t (1 : Fin 2) * 384 + 1 * (y 1).val = (y 1).val; omega

theorem blk_whole8 (c : Dev nD) (t : Fin cfg0.N) : iblk m c 8 t = V m c main_v6 := by
  have e := idx_facts t
  funext y
  show V m c main_v6 (((cfg0.win 8).blk t).view.emb y) = V m c main_v6 y
  refine congrArg (V m c main_v6) (funext fun a => Fin.ext ?_)
  match a with
  | ⟨0, _⟩ => show win0_8.index t (0 : Fin 2) * 1 + 1 * (y 0).val = (y 0).val; omega
  | ⟨1, _⟩ => show win0_8.index t (1 : Fin 2) * 384 + 1 * (y 1).val = (y 1).val; omega

theorem blk_whole9 (c : Dev nD) (t : Fin cfg0.N) : iblk m c 9 t = V m c main_v5 := by
  have e := idx_facts t
  funext y
  show V m c main_v5 (((cfg0.win 9).blk t).view.emb y) = V m c main_v5 y
  refine congrArg (V m c main_v5) (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk_whole10 (c : Dev nD) (t : Fin cfg0.N) : iblk m c 10 t = V m c main_v7 := by
  have e := idx_facts t
  funext y
  show V m c main_v7 (((cfg0.win 10).blk t).view.emb y) = V m c main_v7 y
  refine congrArg (V m c main_v7) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- What point `t` writes back to the hidden output is block `t` of the hidden array function of the arrays the region finds. -/
theorem flushed11_eq (c : Dev nD) (t : Fin cfg0.N) :
    (dats m 0 c).flushed 11 t = ((cfg0.win 11).blk t).view.read (Elt Ideal)
      (arrH (V m c main_arg0) (V m c main_arg1) (V m c main_arg2) (V m c main_arg3) (V m c main_arg4)
        (V m c main_v1) (V m c main_v3) (V m c main_v4) (V m c main_v6) (V m c main_v5) (V m c main_v7)) := by
  have e := idx_facts t
  have h64 : t.val < 64 := lt_of_lt_of_eq t.isLt N_0
  have hb : win0_11.index t (0 : Fin 2) * 4096 + 4096 ≤ 262144 := by omega
  rw [Cert.KernelIdeal.Value.flushed11_A (F := Ideal) m c t,
    out11_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t),
    blk_whole5 m c t, blk_whole6 m c t, blk_whole7 m c t, blk_whole8 m c t, blk_whole9 m c t, blk_whole10 m c t]
  funext j
  exact blockH_is_array (V m c main_arg0) (V m c main_arg1) (V m c main_arg2) (V m c main_arg3) (V m c main_arg4)
    (V m c main_v1) (V m c main_v3) (V m c main_v4) (V m c main_v6) (V m c main_v5) (V m c main_v7)
    (iblk m c 0 t) (iblk m c 1 t) (iblk m c 2 t) (iblk m c 3 t) (iblk m c 4 t) (win0_11.index t (0 : Fin 2)) hb
    (fun r k => blk_row0 m c t r k hb) (fun r k => blk_row1 m c t r k hb) (fun r k => blk_row2 m c t r k hb)
    (fun r k => blk_row3 m c t r k hb) (fun r k => blk_row4 m c t r k hb) j (((cfg0.win 11).blk t).view.emb j)
    (by show win0_11.index t (0 : Fin 2) * 4096 + 1 * (j 0).val = win0_11.index t (0 : Fin 2) * 4096 + (j 0).val; omega)
    (by show win0_11.index t (1 : Fin 2) * 128 + 1 * (j 1).val = (j 1).val; omega)

/-- An index of the hidden array is in point `t`'s block iff each coordinate is in the block's range. -/
theorem mem_blk11 (t : Fin cfg0.N) (i : S262144x128.Idx) :
    i ∈ ((cfg0.win 11).blk t).view.set ↔ ∀ a : Fin 2, win0_11.index t a * S4096x128.size a ≤ (i a).val
      ∧ (i a).val < win0_11.index t a * S4096x128.size a + S4096x128.size a := by
  show i ∈ ((View.whole main_v8_0).slice (win0_11.rect t)).set ↔ _
  rw [View.set_slice_whole, Rect.mem_set_unit]
  exact Iff.rfl

/-- Every index of the hidden array is in the block of the point its row falls in: rows 4096·t … 4096·t + 4095. -/
theorem cover11 (i : S262144x128.Idx) :
    ∃ t : Fin cfg0.N, (cfg0.win 11).flush t = true ∧ i ∈ ((cfg0.win 11).blk t).view.set := by
  have hi0 : (i 0).val < 262144 := idx2_lt0 i
  have hi1 : (i 1).val < 128 := idx2_lt1 i
  have ht : (i 0).val / 4096 < cfg0.N := by show (i 0).val / 4096 < grid0.N; rw [N_0]; omega
  refine ⟨⟨(i 0).val / 4096, ht⟩, flush0_11 _, ?_⟩
  have e := idx_facts ⟨(i 0).val / 4096, ht⟩
  dsimp only at e
  rw [mem_blk11]
  intro a
  match a with
  | ⟨0, _⟩ =>
    show win0_11.index ⟨(i 0).val / 4096, ht⟩ (0 : Fin 2) * 4096 ≤ (i 0).val
      ∧ (i 0).val < win0_11.index ⟨(i 0).val / 4096, ht⟩ (0 : Fin 2) * 4096 + 4096
    have e0 : win0_11.index ⟨(i 0).val / 4096, ht⟩ (0 : Fin 2) = (i 0).val / 4096 := by omega
    rw [e0]; omega
  | ⟨1, _⟩ =>
    show win0_11.index ⟨(i 0).val / 4096, ht⟩ (1 : Fin 2) * 128 ≤ (i 1).val
      ∧ (i 1).val < win0_11.index ⟨(i 0).val / 4096, ht⟩ (1 : Fin 2) * 128 + 128
    have e1 : win0_11.index ⟨(i 0).val / 4096, ht⟩ (1 : Fin 2) = 0 := by omega
    rw [e1]; omega

/-- The hidden array after the run. -/
theorem final11 (c : Dev nD) : (dats m 0 c).arrAt 11 cfg0.N = arrH (V m c main_arg0) (V m c main_arg1) (V m c main_arg2) (V m c main_arg3) (V m c main_arg4)
        (V m c main_v1) (V m c main_v3) (V m c main_v4) (V m c main_v6) (V m c main_v5) (V m c main_v7) :=
  (dats m 0 c).arrAt_eq_of_cover 11 _ (fun t _ => flushed11_eq m c t) cover11

/-- What point `t` writes back to the cell output is block `t` of the cell array function of the arrays the region finds. -/
theorem flushed12_eq (c : Dev nD) (t : Fin cfg0.N) :
    (dats m 0 c).flushed 12 t = ((cfg0.win 12).blk t).view.read (Elt Ideal)
      (arrC (V m c main_arg0) (V m c main_arg1) (V m c main_arg2) (V m c main_arg3) (V m c main_arg4)
        (V m c main_v1) (V m c main_v3) (V m c main_v4) (V m c main_v6) (V m c main_v5) (V m c main_v7)) := by
  have e := idx_facts t
  have h64 : t.val < 64 := lt_of_lt_of_eq t.isLt N_0
  have hb : win0_11.index t (0 : Fin 2) * 4096 + 4096 ≤ 262144 := by omega
  rw [Cert.KernelIdeal.Value.flushed12_A (F := Ideal) m c t,
    out12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t),
    blk_whole5 m c t, blk_whole6 m c t, blk_whole7 m c t, blk_whole8 m c t, blk_whole9 m c t, blk_whole10 m c t]
  funext j
  exact blockC_is_array (V m c main_arg0) (V m c main_arg1) (V m c main_arg2) (V m c main_arg3) (V m c main_arg4)
    (V m c main_v1) (V m c main_v3) (V m c main_v4) (V m c main_v6) (V m c main_v5) (V m c main_v7)
    (iblk m c 0 t) (iblk m c 1 t) (iblk m c 2 t) (iblk m c 3 t) (iblk m c 4 t) (win0_11.index t (0 : Fin 2)) hb
    (fun r k => blk_row0 m c t r k hb) (fun r k => blk_row1 m c t r k hb) (fun r k => blk_row2 m c t r k hb)
    (fun r k => blk_row3 m c t r k hb) (fun r k => blk_row4 m c t r k hb) j (((cfg0.win 12).blk t).view.emb j)
    (by show win0_12.index t (0 : Fin 2) * 4096 + 1 * (j 0).val = win0_11.index t (0 : Fin 2) * 4096 + (j 0).val; omega)
    (by show win0_12.index t (1 : Fin 2) * 128 + 1 * (j 1).val = (j 1).val; omega)

/-- An index of the cell array is in point `t`'s block iff each coordinate is in the block's range. -/
theorem mem_blk12 (t : Fin cfg0.N) (i : S262144x128.Idx) :
    i ∈ ((cfg0.win 12).blk t).view.set ↔ ∀ a : Fin 2, win0_12.index t a * S4096x128.size a ≤ (i a).val
      ∧ (i a).val < win0_12.index t a * S4096x128.size a + S4096x128.size a := by
  show i ∈ ((View.whole main_v8_1).slice (win0_12.rect t)).set ↔ _
  rw [View.set_slice_whole, Rect.mem_set_unit]
  exact Iff.rfl

/-- Every index of the cell array is in the block of the point its row falls in: rows 4096·t … 4096·t + 4095. -/
theorem cover12 (i : S262144x128.Idx) :
    ∃ t : Fin cfg0.N, (cfg0.win 12).flush t = true ∧ i ∈ ((cfg0.win 12).blk t).view.set := by
  have hi0 : (i 0).val < 262144 := idx2_lt0 i
  have hi1 : (i 1).val < 128 := idx2_lt1 i
  have ht : (i 0).val / 4096 < cfg0.N := by show (i 0).val / 4096 < grid0.N; rw [N_0]; omega
  refine ⟨⟨(i 0).val / 4096, ht⟩, flush0_12 _, ?_⟩
  have e := idx_facts ⟨(i 0).val / 4096, ht⟩
  dsimp only at e
  rw [mem_blk12]
  intro a
  match a with
  | ⟨0, _⟩ =>
    show win0_12.index ⟨(i 0).val / 4096, ht⟩ (0 : Fin 2) * 4096 ≤ (i 0).val
      ∧ (i 0).val < win0_12.index ⟨(i 0).val / 4096, ht⟩ (0 : Fin 2) * 4096 + 4096
    have e0 : win0_12.index ⟨(i 0).val / 4096, ht⟩ (0 : Fin 2) = (i 0).val / 4096 := by omega
    rw [e0]; omega
  | ⟨1, _⟩ =>
    show win0_12.index ⟨(i 0).val / 4096, ht⟩ (1 : Fin 2) * 128 ≤ (i 1).val
      ∧ (i 1).val < win0_12.index ⟨(i 0).val / 4096, ht⟩ (1 : Fin 2) * 128 + 128
    have e1 : win0_12.index ⟨(i 0).val / 4096, ht⟩ (1 : Fin 2) = 0 := by omega
    rw [e1]; omega

/-- The cell array after the run. -/
theorem final12 (c : Dev nD) : (dats m 0 c).arrAt 12 cfg0.N = arrC (V m c main_arg0) (V m c main_arg1) (V m c main_arg2) (V m c main_arg3) (V m c main_arg4)
        (V m c main_v1) (V m c main_v3) (V m c main_v4) (V m c main_v6) (V m c main_v5) (V m c main_v7) :=
  (dats m 0 c).arrAt_eq_of_cover 12 _ (fun t _ => flushed12_eq m c t) cover12

end Frame

end Cert.KernelIdeal.Arrays

end
-- ==== Proof.KernelRun.lean ====
/-
  The kernel's two result arrays as functions of the thirteen arguments.

  Before the kernel is launched the host code packs the weights: W_ioux and W_fx side by side as one [128, 512] matrix and
  b_ioux followed by b_fx as one [1, 512] row (so that one matrix product serves the gates and the forget gates), and the
  other weights in a narrower float format or with a leading unit axis. On the extended reals a change of float format is
  the identity, a column of the packed matrix left of 384 is a column of W_ioux and one from 384 on a column of W_fx, and
  likewise for the bias row. Read back this way, the arrays the kernel leaves are the cell and hidden arrays of Target.lean.
-/
import proofs.«181306_j88519275971251_2_alg».proof.Proof.ArrayValue

set_option maxRecDepth 16384

noncomputable section

namespace Cert.KernelIdeal.Arrays

open Cert.KernelIdeal Cert.KernelIdeal.Gen Cert.KernelIdeal.Block Idealize.ShloMosaic Idealize.ShloMosaic.TcCoe
open Idealize.ShloMosaic.ValueIdx Idealize.SL.Sem Cert.TreeCell

section Packed

variable (A0 A1 A2 A3 A4 : S262144x128.Idx → EReal)
  (a5 : S128x384.Idx → EReal) (a6 : S384.Idx → EReal) (a7 : S128x384.Idx → EReal) (a8 : S384.Idx → EReal)
  (a9 : S128x128.Idx → EReal) (a10 : S128.Idx → EReal) (a11 : S128x128.Idx → EReal) (a12 : S128.Idx → EReal)
  (hc1 : Shape.Concatenates [S128x384, S128x128] S128x512 1) (hc0 : Shape.Concatenates [S384, S128] S512 0)
  (hs512 : S512.ShapeCasts S1x512) (hs384 : S384.ShapeCasts S1x384) (hs128 : S128.ShapeCasts S1x128)
  (hlt : FTy.bf16.bits < FTy.f32.bits)

/-- The first 384 columns of the packed input-side matrix are W_ioux. -/
theorem packed_Wx : (fun (k : Fin 128) (j : Fin 384) =>
      (truncf (F := Ideal) .bf16 (concatenate S128x512 1 [⟨S128x384, a5⟩, ⟨S128x128, a9⟩] hc1) hlt) (ix2 k ⟨j.val, by omega⟩))
    = fun k j => a5 (ix2 k j) :=
  funext fun k => funext fun j => Cert.Lib.concat_wide_left hc1 a5 a9 k ⟨j.val, by omega⟩ j.isLt

/-- Its last 128 columns are W_fx. -/
theorem packed_Wfx : (fun (k : Fin 128) (j : Fin 128) =>
      (truncf (F := Ideal) .bf16 (concatenate S128x512 1 [⟨S128x384, a5⟩, ⟨S128x128, a9⟩] hc1) hlt) (ix2 k ⟨j.val + 384, by omega⟩))
    = fun k j => a9 (ix2 k j) :=
  funext fun k => funext fun j =>
    (Cert.Lib.concat_wide_right hc1 a5 a9 k ⟨j.val + 384, by omega⟩ (Nat.le_add_left _ _)
      (by show j.val + 384 - 384 < 128; omega)).trans
      (congrArg (fun z => a9 (ix2 k z)) (Fin.ext (Nat.add_sub_cancel j.val 384)))

/-- The first 384 entries of the packed bias row are b_ioux. -/
theorem packed_bx : (fun (j : Fin 384) =>
      (shapeCast S1x512 (concatenate S512 0 [⟨S384, a6⟩, ⟨S128, a10⟩] hc0) hs512) (ix2 (0 : Fin 1) ⟨j.val, by omega⟩))
    = fun j => a6 (ix1 j) :=
  funext fun j => (shapeCast_a_1a_apply _ hs512 0 ⟨j.val, by omega⟩).trans
    (Cert.RefLib.concat_vec_left hc0 a6 a10 ⟨j.val, by omega⟩ j.isLt)

/-- Its last 128 entries are b_fx. -/
theorem packed_bfx : (fun (j : Fin 128) =>
      (shapeCast S1x512 (concatenate S512 0 [⟨S384, a6⟩, ⟨S128, a10⟩] hc0) hs512) (ix2 (0 : Fin 1) ⟨j.val + 384, by omega⟩))
    = fun j => a10 (ix1 j) :=
  funext fun j => (shapeCast_a_1a_apply _ hs512 0 ⟨j.val + 384, by omega⟩).trans
    ((Cert.RefLib.concat_vec_right hc0 a6 a10 ⟨j.val + 384, by omega⟩ (Nat.le_add_left _ _)
      (by show j.val + 384 - 384 < 128; omega)).trans
      (congrArg (fun z => a10 (ix1 z)) (Fin.ext (Nat.add_sub_cancel j.val 384))))

/-- A bias vector given a leading unit axis reads its entries. -/
theorem row_bh : (fun (j : Fin 384) => (shapeCast S1x384 a8 hs384) (ix2 (0 : Fin 1) j)) = fun j => a8 (ix1 j) :=
  funext fun j => shapeCast_a_1a_apply a8 hs384 0 j

theorem row_bfh : (fun (j : Fin 128) => (shapeCast S1x128 a12 hs128) (ix2 (0 : Fin 1) j)) = fun j => a12 (ix1 j) :=
  funext fun j => shapeCast_a_1a_apply a12 hs128 0 j

/-- With the packed weights read back, the kernel's hidden array function is the hidden array of the arguments. -/
theorem arrH_packed :
    arrH A0 A1 A2 A3 A4 (truncf (F := Ideal) .bf16 (concatenate S128x512 1 [⟨S128x384, a5⟩, ⟨S128x128, a9⟩] hc1) hlt)
      (shapeCast S1x512 (concatenate S512 0 [⟨S384, a6⟩, ⟨S128, a10⟩] hc0) hs512)
      (truncf (F := Ideal) .bf16 a7 hlt) (shapeCast S1x384 a8 hs384) (truncf (F := Ideal) .bf16 a11 hlt) (shapeCast S1x128 a12 hs128)
      = outH A0 A1 A2 A3 A4 a5 a6 a7 a8 a9 a10 a11 a12 := by
  funext i
  unfold arrH arrHrow outH
  rw [packed_Wx a5 a9 hc1 hlt, packed_Wfx a5 a9 hc1 hlt, packed_bx a6 a10 hc0 hs512, packed_bfx a6 a10 hc0 hs512,
    row_bh a8 hs384, row_bfh a12 hs128]
  rfl

/-- … and its cell array function the cell array of the arguments. -/
theorem arrC_packed :
    arrC A0 A1 A2 A3 A4 (truncf (F := Ideal) .bf16 (concatenate S128x512 1 [⟨S128x384, a5⟩, ⟨S128x128, a9⟩] hc1) hlt)
      (shapeCast S1x512 (concatenate S512 0 [⟨S384, a6⟩, ⟨S128, a10⟩] hc0) hs512)
      (truncf (F := Ideal) .bf16 a7 hlt) (shapeCast S1x384 a8 hs384) (truncf (F := Ideal) .bf16 a11 hlt) (shapeCast S1x128 a12 hs128)
      = outC A0 A1 A2 A3 A4 a5 a6 a7 a8 a9 a10 a11 a12 := by
  funext i
  unfold arrC arrCrow outC
  rw [packed_Wx a5 a9 hc1 hlt, packed_Wfx a5 a9 hc1 hlt, packed_bx a6 a10 hc0 hs512, packed_bfx a6 a10 hc0 hs512,
    row_bh a8 hs384, row_bfh a12 hs128]
  rfl

end Packed

section Run

variable (m : (ℓ : Loc nD τ sig) → Buf (Elt Ideal) ℓ) (ρ : Dev nD → PrngReg)

/-- The packed input-side matrix as the region finds it. -/
theorem V_v1 (c : Dev nD) : (V m c main_v1 : S128x512.Idx → EReal)
    = truncf (F := Ideal) .bf16 (concatenate S128x512 1 [⟨S128x384, (m ((c : Thread nD τ).loc main_arg5))⟩, ⟨S128x128, (m ((c : Thread nD τ).loc main_arg9))⟩]
        concatenates_S128x384_S128x128_S128x512_d1) bitsLt_bf16_f32 := by
  dsimp only [V, hostOps0]; after_results

/-- The packed bias row. -/
theorem V_v3 (c : Dev nD) : (V m c main_v3 : S1x512.Idx → EReal)
    = shapeCast S1x512 (concatenate S512 0 [⟨S384, (m ((c : Thread nD τ).loc main_arg6))⟩, ⟨S128, (m ((c : Thread nD τ).loc main_arg10))⟩] concatenates_S384_S128_S512_d0)
        shapeCasts_S512_S1x512 := by
  dsimp only [V, hostOps0]; after_results; rfl

theorem V_v4 (c : Dev nD) : (V m c main_v4 : S128x384.Idx → EReal) = truncf (F := Ideal) .bf16 (m ((c : Thread nD τ).loc main_arg7)) bitsLt_bf16_f32 := by
  dsimp only [V, hostOps0]; after_results

theorem V_v5 (c : Dev nD) : (V m c main_v5 : S128x128.Idx → EReal) = truncf (F := Ideal) .bf16 (m ((c : Thread nD τ).loc main_arg11)) bitsLt_bf16_f32 := by
  dsimp only [V, hostOps0]; after_results

theorem V_v6 (c : Dev nD) : (V m c main_v6 : S1x384.Idx → EReal) = shapeCast S1x384 (m ((c : Thread nD τ).loc main_arg8)) shapeCasts_S384_S1x384 := by
  dsimp only [V, hostOps0]; after_results; rfl

theorem V_v7 (c : Dev nD) : (V m c main_v7 : S1x128.Idx → EReal) = shapeCast S1x128 (m ((c : Thread nD τ).loc main_arg12)) shapeCasts_S128_S1x128 := by
  dsimp only [V, hostOps0]; after_results; rfl

/-- The hidden result array after the run. -/
theorem resultH (c : Dev nD) : (dats m 0 c).arrAt 11 cfg0.N = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final11, V_main_arg0, V_main_arg1, V_main_arg2, V_main_arg3, V_main_arg4, V_v1, V_v3, V_v4, V_v6, V_v5, V_v7]
  exact arrH_packed _ _ _ _ _ _ _ _ _ _ _ _ _ _ _ _ _ _ _

/-- The cell result array after the run. -/
theorem resultC (c : Dev nD) : (dats m 0 c).arrAt 12 cfg0.N = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [final12, V_main_arg0, V_main_arg1, V_main_arg2, V_main_arg3, V_main_arg4, V_v1, V_v3, V_v4, V_v6, V_v5, V_v7]
  exact arrC_packed _ _ _ _ _ _ _ _ _ _ _ _ _ _ _ _ _ _ _

/-- Every weakly fair execution of the kernel program terminates with the two results at the hidden and cell arrays of its
    arguments, and the arguments unchanged. -/
theorem run : θ_run defs (onTc (τ := τ) (main (F := Ideal))) ⟨m, fun _ => 0, ρ⟩ fun r => ∀ c : Dev nD,
      r.2.mem ((c : Thread nD τ).loc main_v8_0) = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v8_1) = outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (resultH m c), (h c).2.1.trans (resultC m c), (h c).2.2⟩)
    (Cert.KernelIdeal.Value.run_blocks m ρ)

end Run

end Cert.KernelIdeal.Arrays

end
-- ==== Proof.RefCell.lean ====
/-
  The reference program, entry by entry, is the tree-LSTM cell of Spec.lean.

  The host program computes, for the whole [262144, 128] arrays at once, the gates' pre-activations
  (inputs·W_ioux + b_ioux) + ((l_h + r_h)·W_iouh + b_iouh), cuts them into three column bands, applies the logistic
  function 1 / (1 + e^(-z)) to two of them and tanh to the third, forms the two forget gates from
  (child·W_fh + b_fh) + (inputs·W_fx + b_fx), and combines them into the new cell and hidden arrays. Read at row r and
  column q, each matrix product is a sum over the 128 hidden columns of row r, and each bias vector broadcast over the
  rows reads its entry q: so entry (r, q) of the results is the cell of row r of the five row arrays.
-/
import proofs.«181306_j88519275971251_2_alg».proof.Proof.Gen.ReferenceIdeal.Read
import proofs.«181306_j88519275971251_2_alg».proof.Proof.Spec
import proofs.«181306_j88519275971251_2_alg».proof.Proof.Target
import Idealize.ShloMosaic.Lib.ValueIdx

noncomputable section

namespace Cert.ReferenceIdeal.RefCell

open Cert.ReferenceIdeal Cert.ReferenceIdeal.Read Idealize.ShloMosaic Idealize.ShloMosaic.ValueIdx Cert.TreeCell

variable (x0 x1 x2 x3 x4 : (⟨S262144x128, .f32⟩ : BufTy).Contents (Elt Ideal))
  (x5 : (⟨S128x384, .f32⟩ : BufTy).Contents (Elt Ideal)) (x6 : (⟨S384, .f32⟩ : BufTy).Contents (Elt Ideal))
  (x7 : (⟨S128x384, .f32⟩ : BufTy).Contents (Elt Ideal)) (x8 : (⟨S384, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The gates' pre-activations at row `r`, column `j` of the 384. -/
theorem pre_apply (r : Fin 262144) (j : Fin 384) :
    val_main_v9 (F := Ideal) x0 x2 x4 x5 x6 x7 x8 (ix2 r j)
      = iou (fun k => x4 (ix2 r k)) (fun k => x0 (ix2 r k)) (fun k => x2 (ix2 r k))
          (fun k j => x5 (ix2 k j)) (fun k j => x7 (ix2 k j)) (fun j => x6 (ix1 j)) (fun j => x8 (ix1 j)) j := by
  have el1 : ∀ k, lidx_main_v1 (ix2 r j) k = ix2 r k := fun k => funext fun a => by
    match a with | ⟨0, _⟩ => rfl | ⟨1, _⟩ => rfl
  have er1 : ∀ k, ridx_main_v1 (ix2 r j) k = ix2 k j := fun k => funext fun a => by
    match a with | ⟨0, _⟩ => rfl | ⟨1, _⟩ => rfl
  have el5 : ∀ k, lidx_main_v5 (ix2 r j) k = ix2 r k := fun k => funext fun a => by
    match a with | ⟨0, _⟩ => rfl | ⟨1, _⟩ => rfl
  have er5 : ∀ k, ridx_main_v5 (ix2 r j) k = ix2 k j := fun k => funext fun a => by
    match a with | ⟨0, _⟩ => rfl | ⟨1, _⟩ => rfl
  have eb3 : idx_main_v2 (idx_main_v3 (ix2 r j)) = ix1 j := funext fun a => by
    match a with | ⟨0, _⟩ => rfl
  have eb7 : idx_main_v6 (idx_main_v7 (ix2 r j)) = ix1 j := funext fun a => by
    match a with | ⟨0, _⟩ => rfl
  rw [val_main_v9_apply, val_main_v4_apply, val_main_v8_apply, val_main_v1_apply, val_main_v3_apply, val_main_v2_apply,
    val_main_v5_apply, val_main_v7_apply, val_main_v6_apply]
  simp only [el1, er1, el5, er5, eb3, eb7, val_main_v0_apply]
  rfl

/-- A logistic gate of the program at an entry: the quotient 1 / (1 + e^(-z)) of the entry it is applied to. -/
theorem gate_form (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = gate z := rfl

/-- A forget gate's pre-activation for the left child at an entry. -/
theorem forgetL_apply (r : Fin 262144) (q : Fin 128) :
    val_main_v34 (F := Ideal) x0 x4 x9 x10 x11 x12 (ix2 r q)
      = forget (fun k => x4 (ix2 r k)) (fun k j => x9 (ix2 k j)) (fun k j => x11 (ix2 k j)) (fun j => x10 (ix1 j))
          (fun j => x12 (ix1 j)) (fun k => x0 (ix2 r k)) q := by
  have el26 : ∀ k, lidx_main_v26 (ix2 r q) k = ix2 r k := fun k => funext fun a => by
    match a with | ⟨0, _⟩ => rfl | ⟨1, _⟩ => rfl
  have er26 : ∀ k, ridx_main_v26 (ix2 r q) k = ix2 k q := fun k => funext fun a => by
    match a with | ⟨0, _⟩ => rfl | ⟨1, _⟩ => rfl
  have el30 : ∀ k, lidx_main_v30 (ix2 r q) k = ix2 r k := fun k => funext fun a => by
    match a with | ⟨0, _⟩ => rfl | ⟨1, _⟩ => rfl
  have er30 : ∀ k, ridx_main_v30 (ix2 r q) k = ix2 k q := fun k => funext fun a => by
    match a with | ⟨0, _⟩ => rfl | ⟨1, _⟩ => rfl
  have eb28 : idx_main_v27 (idx_main_v28 (ix2 r q)) = ix1 q := funext fun a => by
    match a with | ⟨0, _⟩ => rfl
  have eb32 : idx_main_v31 (idx_main_v32 (ix2 r q)) = ix1 q := funext fun a => by
    match a with | ⟨0, _⟩ => rfl
  rw [val_main_v34_apply, val_main_v33_apply, val_main_v29_apply, val_main_v30_apply, val_main_v32_apply, val_main_v31_apply,
    val_main_v26_apply, val_main_v28_apply, val_main_v27_apply]
  simp only [el26, er26, el30, er30, eb28, eb32]
  rfl

/-- A forget gate's pre-activation for the right child at an entry. -/
theorem forgetR_apply (r : Fin 262144) (q : Fin 128) :
    val_main_v45 (F := Ideal) x2 x4 x9 x10 x11 x12 (ix2 r q)
      = forget (fun k => x4 (ix2 r k)) (fun k j => x9 (ix2 k j)) (fun k j => x11 (ix2 k j)) (fun j => x10 (ix1 j))
          (fun j => x12 (ix1 j)) (fun k => x2 (ix2 r k)) q := by
  have el26 : ∀ k, lidx_main_v26 (ix2 r q) k = ix2 r k := fun k => funext fun a => by
    match a with | ⟨0, _⟩ => rfl | ⟨1, _⟩ => rfl
  have er26 : ∀ k, ridx_main_v26 (ix2 r q) k = ix2 k q := fun k => funext fun a => by
    match a with | ⟨0, _⟩ => rfl | ⟨1, _⟩ => rfl
  have el41 : ∀ k, lidx_main_v41 (ix2 r q) k = ix2 r k := fun k => funext fun a => by
    match a with | ⟨0, _⟩ => rfl | ⟨1, _⟩ => rfl
  have er41 : ∀ k, ridx_main_v41 (ix2 r q) k = ix2 k q := fun k => funext fun a => by
    match a with | ⟨0, _⟩ => rfl | ⟨1, _⟩ => rfl
  have eb28 : idx_main_v27 (idx_main_v28 (ix2 r q)) = ix1 q := funext fun a => by
    match a with | ⟨0, _⟩ => rfl
  have eb43 : idx_main_v42 (idx_main_v43 (ix2 r q)) = ix1 q := funext fun a => by
    match a with | ⟨0, _⟩ => rfl
  rw [val_main_v45_apply, val_main_v44_apply, val_main_v29_apply, val_main_v41_apply, val_main_v43_apply, val_main_v42_apply,
    val_main_v26_apply, val_main_v28_apply, val_main_v27_apply]
  simp only [el26, er26, el41, er41, eb28, eb43]
  rfl

/-- The new cell array at an entry is the cell of row `r`. -/
theorem c_apply (r : Fin 262144) (q : Fin 128) :
    val_main_v56 (F := Ideal) x0 x1 x2 x3 x4 x5 x6 x7 x8 x9 x10 x11 x12 (ix2 r q)
      = cellC (fun k => x4 (ix2 r k)) (fun k => x0 (ix2 r k)) (fun k => x2 (ix2 r k)) (x1 (ix2 r q)) (x3 (ix2 r q))
          (fun k j => x5 (ix2 k j)) (fun k j => x7 (ix2 k j)) (fun j => x6 (ix1 j)) (fun j => x8 (ix1 j))
          (fun k j => x9 (ix2 k j)) (fun k j => x11 (ix2 k j)) (fun j => x10 (ix1 j)) (fun j => x12 (ix1 j)) q := by
  have e10 : idx_main_v10 (ix2 r q) = ix2 r ⟨q.val, by omega⟩ := funext fun a => by
    match a with | ⟨0, _⟩ => rfl | ⟨1, _⟩ => rfl
  have e12 : idx_main_v12 (ix2 r q) = ix2 r ⟨q.val + 256, by omega⟩ := funext fun a => by
    match a with | ⟨0, _⟩ => rfl | ⟨1, _⟩ => exact Fin.ext (Nat.add_comm _ _)
  rw [val_main_v56_apply, val_main_v54_apply, val_main_v55_apply, val_main_v52_apply, val_main_v53_apply,
    val_main_v18_apply, val_main_v17_apply, val_main_cst_0_apply, val_main_v16_apply, val_main_v15_apply, val_main_cst_apply,
    val_main_v14_apply, val_main_v13_apply, val_main_v10_apply, val_main_v25_apply, val_main_v12_apply,
    val_main_v40_apply, val_main_v39_apply, val_main_cst_4_apply, val_main_v38_apply, val_main_v37_apply, val_main_cst_3_apply,
    val_main_v36_apply, val_main_v35_apply,
    val_main_v51_apply, val_main_v50_apply, val_main_cst_6_apply, val_main_v49_apply, val_main_v48_apply, val_main_cst_5_apply,
    val_main_v47_apply, val_main_v46_apply,
    e10, e12, pre_apply, pre_apply, forgetL_apply, forgetR_apply]
  rfl

/-- The new hidden array at an entry is the hidden entry of row `r`. -/
theorem h_apply (r : Fin 262144) (q : Fin 128) :
    val_main_v58 (F := Ideal) x0 x1 x2 x3 x4 x5 x6 x7 x8 x9 x10 x11 x12 (ix2 r q)
      = cellH (fun k => x4 (ix2 r k)) (fun k => x0 (ix2 r k)) (fun k => x2 (ix2 r k)) (x1 (ix2 r q)) (x3 (ix2 r q))
          (fun k j => x5 (ix2 k j)) (fun k j => x7 (ix2 k j)) (fun j => x6 (ix1 j)) (fun j => x8 (ix1 j))
          (fun k j => x9 (ix2 k j)) (fun k j => x11 (ix2 k j)) (fun j => x10 (ix1 j)) (fun j => x12 (ix1 j)) q := by
  have e11 : idx_main_v11 (ix2 r q) = ix2 r ⟨q.val + 128, by omega⟩ := funext fun a => by
    match a with | ⟨0, _⟩ => rfl | ⟨1, _⟩ => exact Fin.ext (Nat.add_comm _ _)
  rw [val_main_v58_apply, val_main_v57_apply, c_apply,
    val_main_v24_apply, val_main_v23_apply, val_main_cst_2_apply, val_main_v22_apply, val_main_v21_apply, val_main_cst_1_apply,
    val_main_v20_apply, val_main_v19_apply, val_main_v11_apply, e11, pre_apply]
  rfl

/-- The reference's cell result is the cell array of its arguments. -/
theorem c_eq : val_main_v56 (F := Ideal) x0 x1 x2 x3 x4 x5 x6 x7 x8 x9 x10 x11 x12
    = outC x0 x1 x2 x3 x4 x5 x6 x7 x8 x9 x10 x11 x12 := by
  funext i
  obtain ⟨r, q, rfl⟩ : ∃ (r : Fin 262144) (q : Fin 128), i = ix2 r q := ⟨i 0, i 1, eq_ix2 i⟩
  rw [c_apply]
  rfl

/-- The reference's hidden result is the hidden array of its arguments. -/
theorem h_eq : val_main_v58 (F := Ideal) x0 x1 x2 x3 x4 x5 x6 x7 x8 x9 x10 x11 x12
    = outH x0 x1 x2 x3 x4 x5 x6 x7 x8 x9 x10 x11 x12 := by
  funext i
  obtain ⟨r, q, rfl⟩ : ∃ (r : Fin 262144) (q : Fin 128), i = ix2 r q := ⟨i 0, i 1, eq_ix2 i⟩
  rw [h_apply]
  rfl

end Cert.ReferenceIdeal.RefCell

end
-- ==== Proof.lean ====
/-
  A fused tree-LSTM cell kernel against its plain reference, on the extended reals.

  Both programs compute, for each of 262144 rows, the cell of Proof/Spec.lean: three gates and a candidate from the input
  row and the children's summed hidden rows, two forget gates from each child's hidden row and the input row, the new cell
  entry c = (i·u + f_l·l_c) + f_r·r_c and the new hidden entry h = o·tanh(c) (Proof/Target.lean states the two result
  arrays as functions of the thirteen arguments).

  The reference does this with whole-array operations; read at an entry it is that cell (Proof/RefCell.lean, over the
  generated run of the reference and its read-at-an-index lemmas). The kernel streams 4096 rows per grid point and,
  inside a point, 256 rows per trip of a loop; it packs the two input-side weight matrices into one product, adds the
  hidden bias after the hidden product instead of before, and writes the logistic function as (1/2)·tanh(z/2) + 1/2.
  Proof/ChunkCell.lean reads a trip's stored chunks at an entry, Proof/BlockCell.lean a point's blocks, Proof/ArrayValue.lean
  and Proof/KernelRun.lean the whole arrays. The two programs then differ by three laws only: the tanh form of the
  logistic function (Proof/LibLogisticTanh.lean, true at every extended real, infinities included), associativity of addition, and
  that a change of float format is the identity at the ideal instance. None of them needs the inputs to be finite, so the
  precondition is never opened.

  The frames of the two kernel programs are the generated ones; the reference's frame is its generated run with the
  results dropped; the idealization rewrote no operation, so there is nothing to preserve.
-/
import proofs.«181306_j88519275971251_2_alg».proof.Defs
import proofs.«181306_j88519275971251_2_alg».proof.Proof.Gen.Kernel
import proofs.«181306_j88519275971251_2_alg».proof.Proof.Gen.Kernel.Frame
import proofs.«181306_j88519275971251_2_alg».proof.Proof.Gen.KernelIdeal
import proofs.«181306_j88519275971251_2_alg».proof.Proof.Gen.KernelIdeal.Frame
import proofs.«181306_j88519275971251_2_alg».proof.Proof.Gen.KernelIdeal.Value
import proofs.«181306_j88519275971251_2_alg».proof.Proof.Gen.ReferenceIdeal
import proofs.«181306_j88519275971251_2_alg».proof.Proof.Gen.ReferenceIdeal.Run
import proofs.«181306_j88519275971251_2_alg».proof.Proof.Gen.ReferenceIdeal.Read
import proofs.«181306_j88519275971251_2_alg».proof.Proof.Gen.Pre_finite_inputs
import proofs.«181306_j88519275971251_2_alg».proof.Proof.KernelRun
import proofs.«181306_j88519275971251_2_alg».proof.Proof.RefCell
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the hidden and cell arrays of Proof/Target.lean of their (agreeing) arguments. -/
theorem algebraic : Cert.algebraic_KernelIdeal_ReferenceIdeal := by
  intro m ρ m' ρ' _ hagree
  refine ⟨fun c => Cert.TreeCell.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.TreeCell.outC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v58_eq, Cert.ReferenceIdeal.RefCell.h_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
  · rw [Cert.ReferenceIdeal.Read.val_main_v56_eq, Cert.ReferenceIdeal.RefCell.c_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
